-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x32x32 : Shape := ⟨4, ![4, 64, 32, 32]⟩
abbrev S64x96 : Shape := ⟨2, ![64, 96]⟩
abbrev S96 : Shape := ⟨1, ![96]⟩
abbrev S_ : Shape := ⟨0, ![]⟩

class Facts : Prop where
  bcast_S_S4x64x32x32 : S_.BroadcastsInDim S4x64x32x32 (![] : Fin 0 → Fin S4x64x32x32.rank)
  reducesTo_S4x64x32x32_S_d0_1_2_3 : S4x64x32x32.ReducesTo [0, 1, 2, 3] S_
  h_S_ : 0 < S_.numel
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg1 : FVec F S64x96 .f32) (main_arg2 : FVec F S96 .f32) (main_v13 : IVec S_ 1) (main_v15 : IVec S4x64x32x32 1) (main_c_5 : IVec S_ 1) : IVec S_ 1 :=
  let main_v16 : IVec S_ 1 := (fun x v => Host.reduce IntOp.andi x v reducesTo_S4x64x32x32_S_d0_1_2_3 h_S_) main_v15 main_c_5
  let main_v17 : IVec S_ 1 := andi main_v13 main_v16
  let main_cst_6 : FVec F S_ .f32 := constant S_ .f32 0x00000000#32
  let main_v18 : FVec F S64x96 .f32 := broadcastInDim S64x96 ![] bcast_S_S64x96 main_cst_6
  let main_v19 : IVec S64x96 1 := cmpf .oge main_arg1 main_v18
  let main_c_7 : IVec S_ 1 := constantI S_ 1 1#1
  let main_v20 : IVec S_ 1 := (fun x v => Host.reduce IntOp.andi x v reducesTo_S64x96_S_d0_1 h_S_) main_v19 main_c_7
  let main_v21 : IVec S_ 1 := andi main_v17 main_v20
  let main_cst_8 : FVec F S_ .f32 := constant S_ .f32 0x00000000#32
  let main_v22 : FVec F S96 .f32 := broadcastInDim S96 ![] bcast_S_S96 main_cst_8
  let main_v23 : IVec S96 1 := cmpf .oge main_arg2 main_v22
  let main_c_9 : IVec S_ 1 := constantI S_ 1 1#1
  let main_v24 : IVec S_ 1 := (fun x v => Host.reduce IntOp.andi x v reducesTo_S96_S_d0 h_S_) main_v23 main_c_9
  let main_v25 : IVec S_ 1 := andi main_v21 main_v24
  main_v25

def fn {F : FTy → Type} [FloatOps F] (main_arg0 : FVec F S4x64x32x32 .f32) (main_arg1 : FVec F S64x96 .f32) (main_arg2 : FVec F S96 .f32) : IVec S_ 1 :=
  let main_v0 : FVec F S4x64x32x32 .f32 := Host.absf main_arg0
  let main_cst : FVec F S_ .f32 := constant S_ .f32 0x7F800000#32
  let main_v1 : FVec F S4x64x32x32 .f32 := broadcastInDim S4x64x32x32 ![] bcast_S_S4x64x32x32 main_cst
  let main_v2 : IVec S4x64x32x32 1 := cmpf .olt main_v0 main_v1
  let main_c : IVec S_ 1 := constantI S_ 1 1#1
  let main_v3 : IVec S_ 1 := (fun x v => Host.reduce IntOp.andi x v reducesTo_S4x64x32x32_S_d0_1_2_3 h_S_) main_v2 main_c
  let main_v4 : FVec F S64x96 .f32 := Host.absf main_arg1
  let main_cst_0 : FVec F S_ .f32 := constant S_ .f32 0x7F800000#32
  let main_v5 : FVec F S64x96 .f32 := broadcastInDim S64x96 ![] bcast_S_S64x96 main_cst_0
  let main_v6 : IVec S64x96 1 := cmpf .olt main_v4 main_v5
  let main_c_1 : IVec S_ 1 := constantI S_ 1 1#1
  let main_v7 : IVec S_ 1 := (fun x v => Host.reduce IntOp.andi x v reducesTo_S64x96_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_cst_4 : FVec F S_ .f32 := constant S_ .f32 0x00000000#32
  let main_v14 : FVec F S4x64x32x32 .f32 := broadcastInDim S4x64x32x32 ![] bcast_S_S4x64x32x32 main_cst_4
  let main_v15 : IVec S4x64x32x32 1 := cmpf .oge main_arg0 main_v14
  let main_c_5 : IVec S_ 1 := constantI S_ 1 1#1
  fn_part1 (F := F) main_arg1 main_arg2 main_v13 main_v15 main_c_5
-- ==== Kernel.lean ====
abbrev S4x64x32x32 : Shape := ⟨4, ![4, 64, 32, 32]⟩
abbrev S64x96 : Shape := ⟨2, ![64, 96]⟩
abbrev S96 : Shape := ⟨1, ![96]⟩
abbrev S4x64x1024 : Shape := ⟨3, ![4, 64, 1024]⟩
abbrev S96x64 : Shape := ⟨2, ![96, 64]⟩
abbrev S96x1 : Shape := ⟨2, ![96, 1]⟩
abbrev S96x1024 : Shape := ⟨2, ![96, 1024]⟩
abbrev S4x96x1024 : Shape := ⟨3, ![4, 96, 1024]⟩
abbrev S1x64x1024 : Shape := ⟨3, ![1, 64, 1024]⟩
abbrev S1x96x1024 : Shape := ⟨3, ![1, 96, 1024]⟩
abbrev S64x1024 : Shape := ⟨2, ![64, 1024]⟩
abbrev S1024 : Shape := ⟨1, ![1024]⟩
abbrev S1x1024 : Shape := ⟨2, ![1, 1024]⟩
abbrev S4x96x32x32 : Shape := ⟨4, ![4, 96, 32, 32]⟩

abbrev nBuf : Space → Nat
  | .hbm => 9
  | .vmem => 7
  | .smem => 0
  | _ => 0

abbrev bufTy : (tb : Table) → Fin (tcTables nBuf tb) → BufTy
  | .hbm, ⟨0, _⟩ => ⟨S4x64x32x32, .f32⟩
  | .hbm, ⟨1, _⟩ => ⟨S64x96, .f32⟩
  | .hbm, ⟨2, _⟩ => ⟨S96, .f32⟩
  | .hbm, ⟨3, _⟩ => ⟨S4x64x1024, .f32⟩
  | .hbm, ⟨4, _⟩ => ⟨S96x64, .f32⟩
  | .hbm, ⟨5, _⟩ => ⟨S96x1, .f32⟩
  | .hbm, ⟨6, _⟩ => ⟨S96x1024, .f32⟩
  | .hbm, ⟨7, _⟩ => ⟨S4x96x1024, .f32⟩
  | .hbm, ⟨8, _⟩ => ⟨S4x96x32x32, .f32⟩
  | .local _ .vmem, ⟨0, _⟩ => ⟨S1x64x1024, .f32⟩
  | .local _ .vmem, ⟨1, _⟩ => ⟨S1x64x1024, .f32⟩
  | .local _ .vmem, ⟨2, _⟩ => ⟨S64x96, .f32⟩
  | .local _ .vmem, ⟨3, _⟩ => ⟨S96x64, .f32⟩
  | .local _ .vmem, ⟨4, _⟩ => ⟨S96x1024, .f32⟩
  | .local _ .vmem, ⟨5, _⟩ => ⟨S1x96x1024, .f32⟩
  | .local _ .vmem, ⟨6, _⟩ => ⟨S1x96x1024, .f32⟩
  | _, _ => ⟨S4x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x64x32x32_S4x64x1024 : S4x64x32x32.ShapeCasts S4x64x1024
  transposes_S64x96_S96x64_1_0 : S64x96.Transposes [1, 0] S96x64
  bcast_S96_S96x1_0 : S96.BroadcastsInDim S96x1 (![0] : Fin 1 → Fin S96x1.rank)
  bcast_S96x1_S96x1024_0_1 : S96x1.BroadcastsInDim S96x1024 (![0, 1] : Fin 2 → Fin S96x1024.rank)
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S64x96_S64x96_0_0 : ∀ a, (![0, 0] : Fin 2 → Nat) a + S64x96.size a ≤ S64x96.size a
  h_S64x96 : 0 < S64x96.numel
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S96x1024_S96x1024_0_0 : ∀ a, (![0, 0] : Fin 2 → Nat) a + S96x1024.size a ≤ S96x1024.size a
  h_S96x1024 : 0 < S96x1024.numel
  shapeCasts_S96x1024_S96x1024 : S96x1024.ShapeCasts S96x1024
  reduces_S96x1024_S1024 : S96x1024.Reduces [0] S1024
  shapeCasts_S1024_S1x1024 : S1024.ShapeCasts S1x1024
  broadcasts_S1x1024_S96x1024 : S1x1024.Broadcasts S96x1024
  inb_S1x96x1024_S1x96x1024_0_0_0 : ∀ a, (![0, 0, 0] : Fin 3 → Nat) a + S1x96x1024.size a ≤ S1x96x1024.size a
  h_S1x96x1024 : 0 < S1x96x1024.numel
  shapeCasts_S1x96x1024_S96x1024 : S1x96x1024.ShapeCasts S96x1024
  shapeCasts_S96x1024_S1x96x1024 : S96x1024.ShapeCasts S1x96x1024
  shapeCasts_S4x96x1024_S4x96x32x32 : S4x96x1024.ShapeCasts S4x96x32x32
  dot_S64x96_S96x1024_S64x1024_1_0_0_1_n_n_wf : DotDims.WF S64x96 S96x1024 S64x1024 [1] [0] [0] [1] [] []
  dot_S96x64_S64x1024_S96x1024_1_0_0_1_n_n_wf : DotDims.WF S96x64 S64x1024 S96x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S4x64x1024.size a
  hwx0_0 : ∀ i : grid0.Coords, EltTy.bits .f32 = 32 ∨ (Rect.block (s := S4x64x1024) S1x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x96.size a ≤ S64x96.size a
  hwx0_1 : ∀ i : grid0.Coords, EltTy.bits .f32 = 32 ∨ (Rect.block (s := S64x96) S64x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x64.size a ≤ S96x64.size a
  hwx0_2 : ∀ i : grid0.Coords, EltTy.bits .f32 = 32 ∨ (Rect.block (s := S96x64) S96x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x1024.size a ≤ S96x1024.size a
  hwx0_3 : ∀ i : grid0.Coords, EltTy.bits .f32 = 32 ∨ (Rect.block (s := S96x1024) S96x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x96x1024.size a ≤ S4x96x1024.size a
  hwx0_4 : ∀ i : grid0.Coords, EltTy.bits .f32 = 32 ∨ (Rect.block (s := S4x96x1024) S1x96x1024.size (cc0_transform_4 i) (hinb0_4 i)).WholeWords (EltTy.packing .f32)

variable [Facts₀]

def dot_S64x96_S96x1024_S64x1024_1_0_0_1_n_n : DotDims S64x96 S96x1024 S64x1024 where
  lhsContracting := [1]
  rhsContracting := [0]
  lhsNonContracting := [0]
  rhsNonContracting := [1]
  lhsBatch := []
  rhsBatch := []
  wf := dot_S64x96_S96x1024_S64x1024_1_0_0_1_n_n_wf
def dot_S96x64_S64x1024_S96x1024_1_0_0_1_n_n : DotDims S96x64 S64x1024 S96x1024 where
  lhsContracting := [1]
  rhsContracting := [0]
  lhsNonContracting := [0]
  rhsNonContracting := [1]
  lhsBatch := []
  rhsBatch := []
  wf := dot_S96x64_S64x1024_S96x1024_1_0_0_1_n_n_wf

abbrev win0_0 : Pipeline.Window sig grid0 :=
  Pipeline.Window.ofSpec (Memref.whole main_v0) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S96x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S96x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x96x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x32x32 : Shape := ⟨4, ![4, 64, 32, 32]⟩
abbrev S64x96 : Shape := ⟨2, ![64, 96]⟩
abbrev S96 : Shape := ⟨1, ![96]⟩
abbrev S1x96x1x1 : Shape := ⟨4, ![1, 96, 1, 1]⟩
abbrev S4x96x32x32 : Shape := ⟨4, ![4, 96, 32, 32]⟩
abbrev S4x1x96x32x32 : Shape := ⟨5, ![4, 1, 96, 32, 32]⟩
abbrev S1x64x96x1x1 : Shape := ⟨5, ![1, 64, 96, 1, 1]⟩
abbrev S4x64x96x32x32 : Shape := ⟨5, ![4, 64, 96, 32, 32]⟩
abbrev S_ : Shape := ⟨0, ![]⟩
abbrev S4x64x1x32x32 : Shape := ⟨5, ![4, 64, 1, 32, 32]⟩
abbrev S4x32x32 : Shape := ⟨3, ![4, 32, 32]⟩
abbrev S4x1x32x32 : Shape := ⟨4, ![4, 1, 32, 32]⟩

abbrev nBuf : Space → Nat
  | .hbm => 155
  | .vmem => 0
  | .smem => 0
  | _ => 0

abbrev hbmTy0_0 (i : Nat) : BufTy := match i % 128 with
  | 0 => ⟨S4x64x32x32, .f32⟩
  | 1 => ⟨S64x96, .f32⟩
  | 2 => ⟨S96, .f32⟩
  | 3 => ⟨S1x96x1x1, .f32⟩
  | 4 => ⟨S4x96x32x32, .f32⟩
  | 5 => ⟨S4x1x96x32x32, .f32⟩
  | 6 => ⟨S1x64x96x1x1, .f32⟩
  | 7 => ⟨S4x64x96x32x32, .f32⟩
  | 8 => ⟨S4x64x96x32x32, .f32⟩
  | 9 => ⟨S4x64x96x32x32, .f32⟩
  | 10 => ⟨S_, .f32⟩
  | 11 => ⟨S4x64x32x32, .f32⟩
  | 12 => ⟨S4x64x1x32x32, .f32⟩
  | 13 => ⟨S_, .f32⟩
  | 14 => ⟨S4x64x1x32x32, .f32⟩
  | 15 => ⟨S4x64x1x32x32, .f32⟩
  | 16 => ⟨S4x64x96x32x32, .f32⟩
  | 17 => ⟨S4x64x96x32x32, .f32⟩
  | 18 => ⟨S4x64x1x32x32, .f32⟩
  | 19 => ⟨S4x64x96x32x32, .f32⟩
  | 20 => ⟨S4x64x96x32x32, .f32⟩
  | 21 => ⟨S_, .f32⟩
  | 22 => ⟨S4x96x32x32, .f32⟩
  | 23 => ⟨S_, .f32⟩
  | 24 => ⟨S4x96x32x32, .f32⟩
  | 25 => ⟨S4x96x32x32, .f32⟩
  | 26 => ⟨S4x96x32x32, .f32⟩
  | 27 => ⟨S_, .f32⟩
  | 28 => ⟨S4x32x32, .f32⟩
  | 29 => ⟨S4x1x32x32, .f32⟩
  | 30 => ⟨S_, .f32⟩
  | 31 => ⟨S4x1x32x32, .f32⟩
  | 32 => ⟨S4x1x32x32, .f32⟩
  | 33 => ⟨S4x96x32x32, .f32⟩
  | 34 => ⟨S4x96x32x32, .f32⟩
  | 35 => ⟨S4x1x96x32x32, .f32⟩
  | 36 => ⟨S1x64x96x1x1, .f32⟩
  | 37 => ⟨S4x64x96x32x32, .f32⟩
  | 38 => ⟨S4x64x96x32x32, .f32⟩
  | 39 => ⟨S4x64x96x32x32, .f32⟩
  | 40 => ⟨S_, .f32⟩
  | 41 => ⟨S4x64x32x32, .f32⟩
  | 42 => ⟨S4x64x1x32x32, .f32⟩
  | 43 => ⟨S_, .f32⟩
  | 44 => ⟨S4x64x1x32x32, .f32⟩
  | 45 => ⟨S4x64x1x32x32, .f32⟩
  | 46 => ⟨S4x64x96x32x32, .f32⟩
  | 47 => ⟨S4x64x96x32x32, .f32⟩
  | 48 => ⟨S4x64x1x32x32, .f32⟩
  | 49 => ⟨S4x64x96x32x32, .f32⟩
  | 50 => ⟨S4x64x96x32x32, .f32⟩
  | 51 => ⟨S_, .f32⟩
  | 52 => ⟨S4x96x32x32, .f32⟩
  | 53 => ⟨S_, .f32⟩
  | 54 => ⟨S4x96x32x32, .f32⟩
  | 55 => ⟨S4x96x32x32, .f32⟩
  | 56 => ⟨S4x96x32x32, .f32⟩
  | 57 => ⟨S_, .f32⟩
  | 58 => ⟨S4x32x32, .f32⟩
  | 59 => ⟨S4x1x32x32, .f32⟩
  | 60 => ⟨S_, .f32⟩
  | 61 => ⟨S4x1x32x32, .f32⟩
  | 62 => ⟨S4x1x32x32, .f32⟩
  | 63 => ⟨S4x96x32x32, .f32⟩
  | 64 => ⟨S4x96x32x32, .f32⟩
  | 65 => ⟨S4x1x96x32x32, .f32⟩
  | 66 => ⟨S1x64x96x1x1, .f32⟩
  | 67 => ⟨S4x64x96x32x32, .f32⟩
  | 68 => ⟨S4x64x96x32x32, .f32⟩
  | 69 => ⟨S4x64x96x32x32, .f32⟩
  | 70 => ⟨S_, .f32⟩
  | 71 => ⟨S4x64x32x32, .f32⟩
  | 72 => ⟨S4x64x1x32x32, .f32⟩
  | 73 => ⟨S_, .f32⟩
  | 74 => ⟨S4x64x1x32x32, .f32⟩
  | 75 => ⟨S4x64x1x32x32, .f32⟩
  | 76 => ⟨S4x64x96x32x32, .f32⟩
  | 77 => ⟨S4x64x96x32x32, .f32⟩
  | 78 => ⟨S4x64x1x32x32, .f32⟩
  | 79 => ⟨S4x64x96x32x32, .f32⟩
  | 80 => ⟨S4x64x96x32x32, .f32⟩
  | 81 => ⟨S_, .f32⟩
  | 82 => ⟨S4x96x32x32, .f32⟩
  | 83 => ⟨S_, .f32⟩
  | 84 => ⟨S4x96x32x32, .f32⟩
  | 85 => ⟨S4x96x32x32, .f32⟩
  | 86 => ⟨S4x96x32x32, .f32⟩
  | 87 => ⟨S_, .f32⟩
  | 88 => ⟨S4x32x32, .f32⟩
  | 89 => ⟨S4x1x32x32, .f32⟩
  | 90 => ⟨S_, .f32⟩
  | 91 => ⟨S4x1x32x32, .f32⟩
  | 92 => ⟨S4x1x32x32, .f32⟩
  | 93 => ⟨S4x96x32x32, .f32⟩
  | 94 => ⟨S4x96x32x32, .f32⟩
  | 95 => ⟨S4x1x96x32x32, .f32⟩
  | 96 => ⟨S1x64x96x1x1, .f32⟩
  | 97 => ⟨S4x64x96x32x32, .f32⟩
  | 98 => ⟨S4x64x96x32x32, .f32⟩
  | 99 => ⟨S4x64x96x32x32, .f32⟩
  | 100 => ⟨S_, .f32⟩
  | 101 => ⟨S4x64x32x32, .f32⟩
  | 102 => ⟨S4x64x1x32x32, .f32⟩
  | 103 => ⟨S_, .f32⟩
  | 104 => ⟨S4x64x1x32x32, .f32⟩
  | 105 => ⟨S4x64x1x32x32, .f32⟩
  | 106 => ⟨S4x64x96x32x32, .f32⟩
  | 107 => ⟨S4x64x96x32x32, .f32⟩
  | 108 => ⟨S4x64x1x32x32, .f32⟩
  | 109 => ⟨S4x64x96x32x32, .f32⟩
  | 110 => ⟨S4x64x96x32x32, .f32⟩
  | 111 => ⟨S_, .f32⟩
  | 112 => ⟨S4x96x32x32, .f32⟩
  | 113 => ⟨S_, .f32⟩
  | 114 => ⟨S4x96x32x32, .f32⟩
  | 115 => ⟨S4x96x32x32, .f32⟩
  | 116 => ⟨S4x96x32x32, .f32⟩
  | 117 => ⟨S_, .f32⟩
  | 118 => ⟨S4x32x32, .f32⟩
  | 119 => ⟨S4x1x32x32, .f32⟩
  | 120 => ⟨S_, .f32⟩
  | 121 => ⟨S4x1x32x32, .f32⟩
  | 122 => ⟨S4x1x32x32, .f32⟩
  | 123 => ⟨S4x96x32x32, .f32⟩
  | 124 => ⟨S4x96x32x32, .f32⟩
  | 125 => ⟨S4x1x96x32x32, .f32⟩
  | 126 => ⟨S1x64x96x1x1, .f32⟩
  | 127 => ⟨S4x64x96x32x32, .f32⟩
  | _ => ⟨S4x64x32x32, .f32⟩

abbrev hbmTy0_1 (i : Nat) : BufTy := match i % 128 with
  | 0 => ⟨S4x64x96x32x32, .f32⟩
  | 1 => ⟨S4x64x96x32x32, .f32⟩
  | 2 => ⟨S_, .f32⟩
  | 3 => ⟨S4x64x32x32, .f32⟩
  | 4 => ⟨S4x64x1x32x32, .f32⟩
  | 5 => ⟨S_, .f32⟩
  | 6 => ⟨S4x64x1x32x32, .f32⟩
  | 7 => ⟨S4x64x1x32x32, .f32⟩
  | 8 => ⟨S4x64x96x32x32, .f32⟩
  | 9 => ⟨S4x64x96x32x32, .f32⟩
  | 10 => ⟨S4x64x1x32x32, .f32⟩
  | 11 => ⟨S4x64x96x32x32, .f32⟩
  | 12 => ⟨S4x64x96x32x32, .f32⟩
  | 13 => ⟨S_, .f32⟩
  | 14 => ⟨S4x96x32x32, .f32⟩
  | 15 => ⟨S_, .f32⟩
  | 16 => ⟨S4x96x32x32, .f32⟩
  | 17 => ⟨S4x96x32x32, .f32⟩
  | 18 => ⟨S4x96x32x32, .f32⟩
  | 19 => ⟨S_, .f32⟩
  | 20 => ⟨S4x32x32, .f32⟩
  | 21 => ⟨S4x1x32x32, .f32⟩
  | 22 => ⟨S_, .f32⟩
  | 23 => ⟨S4x1x32x32, .f32⟩
  | 24 => ⟨S4x1x32x32, .f32⟩
  | 25 => ⟨S4x96x32x32, .f32⟩
  | 26 => ⟨S4x96x32x32, .f32⟩
  | _ => ⟨S4x64x32x32, .f32⟩

abbrev hbmTy (i : Nat) : BufTy := match i / 128 with
  | 0 => hbmTy0_0 i
  | 1 => hbmTy0_1 i
  | _ => ⟨S4x64x32x32, .f32⟩

abbrev bufTy : (tb : Table) → Fin (tcTables nBuf tb) → BufTy
  | .hbm, ⟨i, _⟩ => hbmTy i
  | _, _ => ⟨S4x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_cst_10 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_cst_14 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_cst_16 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_17 : Ref sig .tc := ⟨.hbm, 100, rfl⟩
abbrev main_v79 : Ref sig .tc := ⟨.hbm, 101, rfl⟩
abbrev main_v80 : Ref sig .tc := ⟨.hbm, 102, rfl⟩
abbrev main_cst_18 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_19 : Ref sig .tc := ⟨.hbm, 111, rfl⟩
abbrev main_v88 : Ref sig .tc := ⟨.hbm, 112, rfl⟩
abbrev main_cst_20 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_21 : Ref sig .tc := ⟨.hbm, 117, rfl⟩
abbrev main_v92 : Ref sig .tc := ⟨.hbm, 118, rfl⟩
abbrev main_v93 : Ref sig .tc := ⟨.hbm, 119, rfl⟩
abbrev main_cst_22 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_23 : Ref sig .tc := ⟨.hbm, 130, rfl⟩
abbrev main_v103 : Ref sig .tc := ⟨.hbm, 131, rfl⟩
abbrev main_v104 : Ref sig .tc := ⟨.hbm, 132, rfl⟩
abbrev main_cst_24 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_25 : Ref sig .tc := ⟨.hbm, 141, rfl⟩
abbrev main_v112 : Ref sig .tc := ⟨.hbm, 142, rfl⟩
abbrev main_cst_26 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_27 : Ref sig .tc := ⟨.hbm, 147, rfl⟩
abbrev main_v116 : Ref sig .tc := ⟨.hbm, 148, rfl⟩
abbrev main_v117 : Ref sig .tc := ⟨.hbm, 149, rfl⟩
abbrev main_cst_28 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩

abbrev nD : Nat := 1
abbrev τ : Topo := Topo.v7x

variable {F : FTy → Type} [FloatOps F]

class Facts₀ : Prop where
  bcast_S96_S1x96x1x1_1 : S96.BroadcastsInDim S1x96x1x1 (![1] : Fin 1 → Fin S1x96x1x1.rank)
  bcast_S1x96x1x1_S4x96x32x32_0_1_2_3 : S1x96x1x1.BroadcastsInDim S4x96x32x32 (![0, 1, 2, 3] : Fin 4 → Fin S4x96x32x32.rank)
  bcast_S4x96x32x32_S4x1x96x32x32_0_2_3_4 : S4x96x32x32.BroadcastsInDim S4x1x96x32x32 (![0, 2, 3, 4] : Fin 4 → Fin S4x1x96x32x32.rank)
  bcast_S64x96_S1x64x96x1x1_1_2 : S64x96.BroadcastsInDim S1x64x96x1x1 (![1, 2] : Fin 2 → Fin S1x64x96x1x1.rank)
  bcast_S4x1x96x32x32_S4x64x96x32x32_0_1_2_3_4 : S4x1x96x32x32.BroadcastsInDim S4x64x96x32x32 (![0, 1, 2, 3, 4] : Fin 5 → Fin S4x64x96x32x32.rank)
  bcast_S1x64x96x1x1_S4x64x96x32x32_0_1_2_3_4 : S1x64x96x1x1.BroadcastsInDim S4x64x96x32x32 (![0, 1, 2, 3, 4] : Fin 5 → Fin S4x64x96x32x32.rank)
  reducesTo_S4x64x96x32x32_S4x64x32x32_d2 : S4x64x96x32x32.ReducesTo [2] S4x64x32x32
  h_S_ : 0 < S_.numel
  bcast_S4x64x32x32_S4x64x1x32x32_0_1_3_4 : S4x64x32x32.BroadcastsInDim S4x64x1x32x32 (![0, 1, 3, 4] : Fin 4 → Fin S4x64x1x32x32.rank)
  bcast_S_S4x64x1x32x32 : S_.BroadcastsInDim S4x64x1x32x32 (![] : Fin 0 → Fin S4x64x1x32x32.rank)
  bcast_S4x64x1x32x32_S4x64x96x32x32_0_1_2_3_4 : S4x64x1x32x32.BroadcastsInDim S4x64x96x32x32 (![0, 1, 2, 3, 4] : Fin 5 → Fin S4x64x96x32x32.rank)
  reducesTo_S4x64x96x32x32_S4x96x32x32_d1 : S4x64x96x32x32.ReducesTo [1] S4x96x32x32
  bcast_S_S4x96x32x32 : S_.BroadcastsInDim S4x96x32x32 (![] : Fin 0 → Fin S4x96x32x32.rank)
  reducesTo_S4x96x32x32_S4x32x32_d1 : S4x96x32x32.ReducesTo [1] S4x32x32
  bcast_S4x32x32_S4x1x32x32_0_2_3 : S4x32x32.BroadcastsInDim S4x1x32x32 (![0, 2, 3] : Fin 3 → Fin S4x1x32x32.rank)
  bcast_S_S4x1x32x32 : S_.BroadcastsInDim S4x1x32x32 (![] : Fin 0 → Fin S4x1x32x32.rank)
  bcast_S4x1x32x32_S4x96x32x32_0_1_2_3 : S4x1x32x32.BroadcastsInDim S4x96x32x32 (![0, 1, 2, 3] : Fin 4 → Fin S4x96x32x32.rank)

variable [Facts₀]

class Facts : Prop extends Facts₀ where

variable [Facts]
-- ==== Proof.NmfSpec.lean ====
/-
  One multiplicative-update step of the factorisation, per pixel, on the extended reals.

  A pixel carries a data column `x : Fin 64 → EReal` (input channels) and a state column
  `h : Fin 96 → EReal` (output channels); the weights are `W : Fin 64 → Fin 96 → EReal`.  One step is

      s i   = (∑ k, W i k · h k) + ε                      -- the reconstruction of input channel i, guarded
      hn c  = h c + h c · ∑ i, W i c · x i / s i          -- the multiplicative update
      h' c  = hn c / ((∑ k, hn k) + ε)                    -- renormalisation over the output channels

  The two programs spell `hn` differently.  One forms the quotient `x i / s i` first and multiplies the
  sum over `i` by `1 · h c` afterwards (`hnK`); the other forms `(h c · W i c) / s i`, multiplies by `x i`,
  sums, and multiplies by `1` (`hnR`), with the products inside `s i` commuted.  On the extended reals
  the two agree wherever every entry is a nonnegative real: then every `s i ≥ ε > 0`, every quotient is an
  ordinary real quotient, and moving the factor `h c` across the finite sum is distributivity in ℝ.
  (Without nonnegativity a guard `s i` can vanish, a quotient becomes infinite, and the two spellings part.)
-/
import Idealize.ShloMosaic.PureOps.Ideal
import Idealize.ShloMosaic.PureOps.Ideal.Laws
import Idealize.ShloMosaic.Lib.ValueIdx

noncomputable section

namespace Cert.Nmf

open Idealize.ShloMosaic

/-- The guard added to every denominator: the extended real the f32 pattern `0x1E3CE508` denotes (about 1e-20). -/
def eps : EReal := Ideal.ofBits .f32 0x1E3CE508#32

/-- The update's step size: the extended real the f32 pattern `0x3F800000` denotes, which is 1. -/
def one : EReal := Ideal.ofBits .f32 0x3F800000#32

/-- The update before renormalisation, quotient-first spelling: `h c + (1 · h c) · ∑ i, W i c · (x i / s i)`. -/
def hnK (W : Fin 64 → Fin 96 → EReal) (x : Fin 64 → EReal) (h : Fin 96 → EReal) (c : Fin 96) : EReal :=
  h c + (one * h c) * ∑ i : Fin 64, W i c * Ideal.div (x i) ((∑ k : Fin 96, W i k * h k) + eps)

/-- The update before renormalisation, product-first spelling: `h c + 1 · ∑ i, ((h c · W i c) / s i) · x i`. -/
def hnR (W : Fin 64 → Fin 96 → EReal) (x : Fin 64 → EReal) (h : Fin 96 → EReal) (c : Fin 96) : EReal :=
  h c + one * ∑ i : Fin 64, Ideal.div (h c * W i c) ((∑ k : Fin 96, h k * W i k) + eps) * x i

/-- Renormalisation over the output channels: `hn c / ((∑ k, hn k) + ε)`. -/
def norm (hn : Fin 96 → EReal) (c : Fin 96) : EReal :=
  Ideal.div (hn c) ((∑ k : Fin 96, hn k) + eps)

/-- One step, quotient-first. -/
def stepK (W : Fin 64 → Fin 96 → EReal) (x : Fin 64 → EReal) (h : Fin 96 → EReal) : Fin 96 → EReal :=
  norm (hnK W x h)

/-- One step, product-first. -/
def stepR (W : Fin 64 → Fin 96 → EReal) (x : Fin 64 → EReal) (h : Fin 96 → EReal) : Fin 96 → EReal :=
  norm (hnR W x h)

/-- An extended real that is a nonnegative real number. -/
def NN (a : EReal) : Prop := ∃ r : ℝ, 0 ≤ r ∧ a = (r : EReal)

open ValueIdx

/-- The whole result, quotient-first: at batch `b`, output channel `c`, pixel `(i, j)`, five steps from the
    initial state `H` (the same at every pixel) on the pixel's data column `X[b, ·, i, j]` with the weights `W`. -/
def GK (X : (⟨4, ![4, 64, 32, 32]⟩ : Shape).Idx → EReal) (W : (⟨2, ![64, 96]⟩ : Shape).Idx → EReal)
    (H : (⟨1, ![96]⟩ : Shape).Idx → EReal) : (⟨4, ![4, 96, 32, 32]⟩ : Shape).Idx → EReal :=
  fun idx => (stepK (fun ci k => W (ix2 ci k)) (fun ci => X (ix4 (idx 0) ci (idx 2) (idx 3))))^[5] (fun k => H (ix1 k)) (idx 1)

/-- The whole result, product-first: the same five steps with `stepR`. -/
def GR (X : (⟨4, ![4, 64, 32, 32]⟩ : Shape).Idx → EReal) (W : (⟨2, ![64, 96]⟩ : Shape).Idx → EReal)
    (H : (⟨1, ![96]⟩ : Shape).Idx → EReal) : (⟨4, ![4, 96, 32, 32]⟩ : Shape).Idx → EReal :=
  fun idx => (stepR (fun ci k => W (ix2 ci k)) (fun ci => X (ix4 (idx 0) ci (idx 2) (idx 3))))^[5] (fun k => H (ix1 k)) (idx 1)

end Cert.Nmf

end
-- ==== Proof.NmfAlgebra.lean ====
/-
  The algebra joining the two spellings of one update step.

  Where every entry of the weights, the data column and the state column is a nonnegative real, every guarded
  denominator is a real number that is at least ε > 0, so every quotient on the extended reals is the ordinary real
  quotient, every intermediate value is again a nonnegative real, and both spellings of the update are the coercion
  of ONE real-valued expression: moving the factor `h c` across the finite sum is distributivity in ℝ.
-/
import proofs.«131620_j35794257444867_1_alg».proof.Proof.NmfSpec
import Mathlib

noncomputable section

namespace Cert.Nmf

open Idealize.ShloMosaic

/-! ### The two constants -/

/-- The step size is the extended real 1: sign 0, exponent 127 (the bias), fraction 0. -/
theorem one_eq : one = (1 : EReal) := by
  have h : ((8388608 : ℝ) : EReal) * (((2 : ℝ) ^ 23)⁻¹ : ℝ) = 1 := by
    rw [← EReal.coe_mul, ← EReal.coe_one]
    congr 1
    norm_num
  simpa [one, Ideal.ofBits, Ideal.ieee] using h

/-- The guard is a positive real: sign 0, a normal exponent, so `(2^23 + fraction) · 2^k` for an integer `k`. -/
theorem eps_pos : ∃ e : ℝ, 0 < e ∧ eps = (e : EReal) := by
  refine ⟨12379400 * ((2 : ℝ) ^ 90)⁻¹, by positivity, ?_⟩
  rw [EReal.coe_mul]
  simp [eps, Ideal.ofBits, Ideal.ieee]

/-! ### Coercion of real sums and quotients -/

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With a nonzero real denominator the extended quotient of two reals is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-! ### The step on the reals -/

/-- The update before renormalisation, on real entries with guard `e`. -/
def hnReal (e : ℝ) (W : Fin 64 → Fin 96 → ℝ) (x : Fin 64 → ℝ) (h : Fin 96 → ℝ) (c : Fin 96) : ℝ :=
  h c + h c * ∑ i : Fin 64, W i c * (x i / ((∑ k : Fin 96, W i k * h k) + e))

/-- Renormalisation on real entries with guard `e`. -/
def normReal (e : ℝ) (hn : Fin 96 → ℝ) (c : Fin 96) : ℝ := hn c / ((∑ k : Fin 96, hn k) + e)

/-- The guarded reconstruction of an input channel is positive. -/
theorem den_pos {e : ℝ} (he : 0 < e) {W : Fin 64 → Fin 96 → ℝ} {h : Fin 96 → ℝ}
    (hW : ∀ i c, 0 ≤ W i c) (hh : ∀ c, 0 ≤ h c) (i : Fin 64) : 0 < (∑ k : Fin 96, W i k * h k) + e :=
  add_pos_of_nonneg_of_pos (Finset.sum_nonneg fun k _ => mul_nonneg (hW i k) (hh k)) he

theorem hnReal_nonneg {e : ℝ} (he : 0 < e) {W : Fin 64 → Fin 96 → ℝ} {x : Fin 64 → ℝ} {h : Fin 96 → ℝ}
    (hW : ∀ i c, 0 ≤ W i c) (hx : ∀ i, 0 ≤ x i) (hh : ∀ c, 0 ≤ h c) (c : Fin 96) : 0 ≤ hnReal e W x h c :=
  add_nonneg (hh c) (mul_nonneg (hh c) (Finset.sum_nonneg fun i _ =>
    mul_nonneg (hW i c) (div_nonneg (hx i) (den_pos he hW hh i).le)))

theorem normReal_nonneg {e : ℝ} (he : 0 < e) {hn : Fin 96 → ℝ} (h0 : ∀ c, 0 ≤ hn c) (c : Fin 96) :
    0 ≤ normReal e hn c :=
  div_nonneg (h0 c) (add_pos_of_nonneg_of_pos (Finset.sum_nonneg fun k _ => h0 k) he).le

/-- The quotient-first spelling on nonnegative real entries is the coercion of the real update. -/
theorem hnK_coe {e : ℝ} (he : 0 < e) (hε : eps = (e : EReal)) {W : Fin 64 → Fin 96 → ℝ} {x : Fin 64 → ℝ}
    {h : Fin 96 → ℝ} (hW : ∀ i c, 0 ≤ W i c) (hh : ∀ c, 0 ≤ h c) (c : Fin 96) :
    hnK (fun i c => (W i c : EReal)) (fun i => (x i : EReal)) (fun c => (h c : EReal)) c
      = ((hnReal e W x h c : ℝ) : EReal) := by
  have hd : ∀ i : Fin 64, Ideal.div (x i : EReal) ((∑ k : Fin 96, (W i k : EReal) * (h k : EReal)) + eps)
      = ((x i / ((∑ k : Fin 96, W i k * h k) + e) : ℝ) : EReal) := by
    intro i
    rw [hε]
    simp only [← EReal.coe_mul, ← coe_sum, ← EReal.coe_add]
    exact div_coe_coe _ (den_pos he hW hh i).ne'
  simp only [hnK, hnReal, one_eq, one_mul, hd]
  simp only [← EReal.coe_mul, ← coe_sum, ← EReal.coe_add]

/-- The product-first spelling on nonnegative real entries is the coercion of the same real update. -/
theorem hnR_coe {e : ℝ} (he : 0 < e) (hε : eps = (e : EReal)) {W : Fin 64 → Fin 96 → ℝ} {x : Fin 64 → ℝ}
    {h : Fin 96 → ℝ} (hW : ∀ i c, 0 ≤ W i c) (hh : ∀ c, 0 ≤ h c) (c : Fin 96) :
    hnR (fun i c => (W i c : EReal)) (fun i => (x i : EReal)) (fun c => (h c : EReal)) c
      = ((hnReal e W x h c : ℝ) : EReal) := by
  have hd : ∀ i : Fin 64,
      Ideal.div ((h c : EReal) * (W i c : EReal)) ((∑ k : Fin 96, (h k : EReal) * (W i k : EReal)) + eps)
      = ((h c * W i c / ((∑ k : Fin 96, W i k * h k) + e) : ℝ) : EReal) := by
    intro i
    rw [hε]
    simp only [← EReal.coe_mul, ← coe_sum, ← EReal.coe_add]
    have hs : (∑ k : Fin 96, h k * W i k) = ∑ k : Fin 96, W i k * h k :=
      Finset.sum_congr rfl fun k _ => mul_comm _ _
    rw [hs]
    exact div_coe_coe _ (den_pos he hW hh i).ne'
  simp only [hnR, hnReal, one_eq, one_mul, hd]
  simp only [← EReal.coe_mul, ← coe_sum, ← EReal.coe_add]
  congr 2
  rw [Finset.mul_sum]
  exact Finset.sum_congr rfl fun i _ => by ring

/-- Renormalisation of nonnegative real entries is the coercion of the real renormalisation. -/
theorem norm_coe {e : ℝ} (he : 0 < e) (hε : eps = (e : EReal)) {hn : Fin 96 → ℝ} (h0 : ∀ c, 0 ≤ hn c) (c : Fin 96) :
    norm (fun c => (hn c : EReal)) c = ((normReal e hn c : ℝ) : EReal) := by
  unfold norm normReal
  rw [hε]
  simp only [← coe_sum, ← EReal.coe_add]
  exact div_coe_coe _ (add_pos_of_nonneg_of_pos (Finset.sum_nonneg fun k _ => h0 k) he).ne'

/-! ### The two spellings agree on nonnegative reals -/

theorem hnK_eq_hnR (W : Fin 64 → Fin 96 → EReal) (x : Fin 64 → EReal) (h : Fin 96 → EReal)
    (hW : ∀ i c, NN (W i c)) (hx : ∀ i, NN (x i)) (hh : ∀ c, NN (h c)) : hnK W x h = hnR W x h := by
  obtain ⟨e, he, hε⟩ := eps_pos
  choose Wr hW0 hWr using hW
  choose xr hx0 hxr using hx
  choose hr hh0 hhr using hh
  obtain rfl : W = fun i c => (Wr i c : EReal) := by funext i c; exact hWr i c
  obtain rfl : x = fun i => (xr i : EReal) := funext hxr
  obtain rfl : h = fun c => (hr c : EReal) := funext hhr
  funext c
  rw [hnK_coe he hε hW0 hh0, hnR_coe he hε hW0 hh0]

theorem stepK_eq_stepR (W : Fin 64 → Fin 96 → EReal) (x : Fin 64 → EReal) (h : Fin 96 → EReal)
    (hW : ∀ i c, NN (W i c)) (hx : ∀ i, NN (x i)) (hh : ∀ c, NN (h c)) : stepK W x h = stepR W x h := by
  unfold stepK stepR
  rw [hnK_eq_hnR W x h hW hx hh]

/-- A step keeps every entry a nonnegative real. -/
theorem stepR_nn (W : Fin 64 → Fin 96 → EReal) (x : Fin 64 → EReal) (h : Fin 96 → EReal)
    (hW : ∀ i c, NN (W i c)) (hx : ∀ i, NN (x i)) (hh : ∀ c, NN (h c)) : ∀ c, NN (stepR W x h c) := by
  obtain ⟨e, he, hε⟩ := eps_pos
  choose Wr hW0 hWr using hW
  choose xr hx0 hxr using hx
  choose hr hh0 hhr using hh
  obtain rfl : W = fun i c => (Wr i c : EReal) := by funext i c; exact hWr i c
  obtain rfl : x = fun i => (xr i : EReal) := funext hxr
  obtain rfl : h = fun c => (hr c : EReal) := funext hhr
  intro c
  have hfun : hnR (fun i c => (Wr i c : EReal)) (fun i => (xr i : EReal)) (fun c => (hr c : EReal))
      = fun c => ((hnReal e Wr xr hr c : ℝ) : EReal) := funext fun c => hnR_coe he hε hW0 hh0 c
  unfold stepR
  rw [hfun, norm_coe he hε (hnReal_nonneg he hW0 hx0 hh0)]
  exact ⟨_, normReal_nonneg he (hnReal_nonneg he hW0 hx0 hh0) c, rfl⟩

/-- Iterating the product-first step keeps every entry a nonnegative real. -/
theorem iterate_stepR_nn (W : Fin 64 → Fin 96 → EReal) (x : Fin 64 → EReal) (h : Fin 96 → EReal)
    (hW : ∀ i c, NN (W i c)) (hx : ∀ i, NN (x i)) (hh : ∀ c, NN (h c)) (n : ℕ) :
    ∀ c, NN ((stepR W x)^[n] h c) := by
  induction n with
  | zero => simpa using hh
  | succ n ih =>
    rw [Function.iterate_succ_apply']
    exact stepR_nn W x _ hW hx ih

/-- Any number of steps: the two spellings agree, carrying nonnegativity along the product-first iterates. -/
theorem iterate_stepK_eq (W : Fin 64 → Fin 96 → EReal) (x : Fin 64 → EReal) (h : Fin 96 → EReal)
    (hW : ∀ i c, NN (W i c)) (hx : ∀ i, NN (x i)) (hh : ∀ c, NN (h c)) (n : ℕ) :
    (stepK W x)^[n] h = (stepR W x)^[n] h := by
  induction n with
  | zero => rw [Function.iterate_zero_apply, Function.iterate_zero_apply]
  | succ n ih =>
    rw [Function.iterate_succ_apply', Function.iterate_succ_apply', ih]
    exact stepK_eq_stepR W x _ hW hx (iterate_stepR_nn W x h hW hx hh n)

end Cert.Nmf

end
-- ==== Proof.NmfPre.lean ====
/-
  The precondition read back, entry by entry, on the extended reals.

  The predicate is the conjunction of six tests, each a comparison taken at every entry of one input
  and then reduced by `and` over all axes from the constant 1:

      |x| < +∞,  |W| < +∞,  |h| < +∞,   x ≥ 0,  W ≥ 0,  h ≥ 0.

  Here `|a|` is `max a (-a)`, `+∞` is the value of the f32 pattern `0x7F800000` (the top element `⊤`)
  and `0` is the value of the pattern `0x00000000`.  If the conjunction is 1 then each of the six
  reductions is 1, so each comparison is 1 at every entry.  For one entry `a` this says
  `max a (-a) < ⊤` and `0 ≤ a`.  The second excludes `⊥`; the first, since `a ≤ max a (-a)`, excludes `⊤`.
  An extended real that is neither `⊥` nor `⊤` is a real number `r`, and `0 ≤ (r : EReal)` is `0 ≤ r`:
  so every entry of every input is a nonnegative real.
-/
import proofs.«131620_j35794257444867_1_alg».proof.Pre_finite_inputs
import proofs.«131620_j35794257444867_1_alg».proof.Proof.Gen.Pre_finite_inputs
import proofs.«131620_j35794257444867_1_alg».proof.Proof.NmfSpec
import Idealize.ShloMosaic.Lib.ValueIdx
import Idealize.ShloMosaic.Lib.ReduceAll
import Idealize.ShloMosaic.PureOps.Ideal

noncomputable section

namespace Cert.NmfPre

open Idealize.ShloMosaic

/-- The rank-0 shape has exactly one index: a function out of the empty set of axes. -/
instance : Subsingleton Cert.Pre_finite_inputs.S_.Idx := ⟨fun a b => funext fun d => d.elim0⟩

/-- The f32 pattern `0x7F800000` (all-ones exponent, zero fraction, sign clear) denotes `⊤`. -/
theorem ofBits_inf_f32 : Ideal.ofBits .f32 0x7F800000#32 = (⊤ : EReal) := by
  simp [Ideal.ofBits, Ideal.ieee]

/-- The ordered "less than" of two extended reals is 1 only when the first is below the second. -/
theorem lt_of_cmp_olt {a b : EReal} (h : Ideal.cmp .olt a b = 1#1) : a < b := by
  by_contra hn
  simp [Ideal.cmp, hn] at h

/-- The ordered "greater or equal" of two extended reals is 1 only when the second is at most the first. -/
theorem le_of_cmp_oge {a b : EReal} (h : Ideal.cmp .oge a b = 1#1) : b ≤ a := by
  by_contra hn
  simp [Ideal.cmp, hn] at h

/-- An extended real with `max a (-a) < ⊤` and `0 ≤ a` is a nonnegative real: `⊥` fails the second,
    `⊤` fails the first, and at a real `r` the second is `0 ≤ r`. -/
theorem nn_of_abs_lt_top_of_nonneg {a : EReal} (hfin : max a (-a) < ⊤) (hpos : 0 ≤ a) : Cert.Nmf.NN a := by
  induction a using EReal.rec with
  | bot => exact absurd hpos (by simp)
  | top => exact absurd hfin (by simp)
  | coe r => exact ⟨r, EReal.coe_nonneg.mp hpos, rfl⟩

/-- One input's two tests at one entry: the "finite" comparison of `|a|` against the `+∞` pattern and the
    "nonnegative" comparison of `a` against the `0` pattern, both 1, make `a` a nonnegative real. -/
theorem nn_of_tests {a : EReal}
    (hfin : Ideal.cmp .olt (max a (-a)) (Ideal.ofBits .f32 0x7F800000#32) = 1#1)
    (hpos : Ideal.cmp .oge a (Ideal.ofBits .f32 0x00000000#32) = 1#1) : Cert.Nmf.NN a := by
  have h1 := lt_of_cmp_olt hfin
  have h2 := le_of_cmp_oge hpos
  rw [ofBits_inf_f32] at h1
  rw [Ideal.ofBits_zero_f32] at h2
  exact nn_of_abs_lt_top_of_nonneg h1 h2

/-- If the predicate evaluates to 1 then every entry of the data, of the weights and of the initial state
    is a nonnegative real.  The conjunction splits into its six reductions; a reduction by `and` over all
    axes that is 1 had a 1 at every entry; the two comparisons at an entry give the claim there. -/
theorem nn_of_pre (x : FVec Ideal Cert.Pre_finite_inputs.S4x64x32x32 .f32) (w : FVec Ideal Cert.Pre_finite_inputs.S64x96 .f32)
    (h : FVec Ideal Cert.Pre_finite_inputs.S96 .f32)
    (hp : Cert.Pre_finite_inputs.fn (F := Ideal) x w h = fun _ => 1#1) :
    (∀ i, Cert.Nmf.NN (x i)) ∧ (∀ i, Cert.Nmf.NN (w i)) ∧ (∀ i, Cert.Nmf.NN (h i)) := by
  have h0 := congrFun hp ValueIdx.ix0
  dsimp only [Cert.Pre_finite_inputs.fn, Cert.Pre_finite_inputs.fn_part1] at h0
  obtain ⟨h0, hh0⟩ := IntOp.andi_eq_one.1 h0
  obtain ⟨h0, hw0⟩ := IntOp.andi_eq_one.1 h0
  obtain ⟨h0, hx0⟩ := IntOp.andi_eq_one.1 h0
  obtain ⟨h0, hhf⟩ := IntOp.andi_eq_one.1 h0
  obtain ⟨hxf, hwf⟩ := IntOp.andi_eq_one.1 h0
  refine ⟨fun i => ?_, fun i => ?_, fun i => ?_⟩
  · exact nn_of_tests (Host.reduce_andi_all _ _ _ _ _ hxf i) (Host.reduce_andi_all _ _ _ _ _ hx0 i)
  · exact nn_of_tests (Host.reduce_andi_all _ _ _ _ _ hwf i) (Host.reduce_andi_all _ _ _ _ _ hw0 i)
  · exact nn_of_tests (Host.reduce_andi_all _ _ _ _ _ hhf i) (Host.reduce_andi_all _ _ _ _ _ hh0 i)

end Cert.NmfPre

end
-- ==== Proof.NmfRef.lean ====
/-
  The reference computes the product-first factorisation update, five times, on whole arrays.

  Its arrays are X : [4, 64, 32, 32] (data), W : [64, 96] (weights) and H : [96] (initial state). The state
  h : [4, 96, 32, 32] starts as H spread over every batch b and pixel (i, j). One step forms the rank-5 products
  A[b, ci, co, i, j] = h[b, co, i, j] * W[ci, co], the guarded reconstruction s[b, ci, i, j] = (∑ co, A[b, ci, co, i, j]) + eps,
  the update hn[b, co, i, j] = h[b, co, i, j] + 1 * ∑ ci, (A[b, ci, co, i, j] / s[b, ci, i, j]) * X[b, ci, i, j], and the
  renormalisation h'[b, co, i, j] = hn[b, co, i, j] / ((∑ k, hn[b, k, i, j]) + eps).

  Nothing in a step mixes two batches or two pixels: read along the output-channel column of one pixel, a step on
  arrays is `Cert.Nmf.stepR` on that column, with the weights as a function of (ci, co) and the pixel's data column
  X[b, ·, i, j]. Every broadcast is read at an index by naming the source index (0 on a unit axis), every sum over one
  axis is the initial value 0 plus the `Fin`-indexed sum over that axis, and the quotients and products are the
  extended reals' own. So five array steps from the spread initial state are `Cert.Nmf.GR X W H`, index by index, and
  the run of the reference (the generated module's `Value.run`) ends at that function of the argument arrays.
-/
import proofs.«131620_j35794257444867_1_alg».proof.Proof.Gen.ReferenceIdeal.Run
import proofs.«131620_j35794257444867_1_alg».proof.Proof.NmfSpec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

/-- The initial state spread over batches and pixels. -/
def rH0 (H : FVec Ideal S96 .f32) : FVec Ideal S4x96x32x32 .f32 :=
  broadcastInDim S4x96x32x32 ![0, 1, 2, 3] bcast_S1x96x1x1_S4x96x32x32_0_1_2_3 (broadcastInDim S1x96x1x1 ![1] bcast_S96_S1x96x1x1_1 H)

/-- The products h[b, co, i, j] * W[ci, co], as a rank-5 array. -/
def rA (W : FVec Ideal S64x96 .f32) (h : FVec Ideal S4x96x32x32 .f32) : FVec Ideal S4x64x96x32x32 .f32 :=
  mulf (broadcastInDim S4x64x96x32x32 ![0, 1, 2, 3, 4] bcast_S4x1x96x32x32_S4x64x96x32x32_0_1_2_3_4 (broadcastInDim S4x1x96x32x32 ![0, 2, 3, 4] bcast_S4x96x32x32_S4x1x96x32x32_0_2_3_4 h)) (broadcastInDim S4x64x96x32x32 ![0, 1, 2, 3, 4] bcast_S1x64x96x1x1_S4x64x96x32x32_0_1_2_3_4 (broadcastInDim S1x64x96x1x1 ![1, 2] bcast_S64x96_S1x64x96x1x1_1_2 W))

/-- The guarded reconstruction: the sum of the products over the output channels plus eps, spread back over them. -/
def rDen (A : FVec Ideal S4x64x96x32x32 .f32) : FVec Ideal S4x64x96x32x32 .f32 :=
  broadcastInDim S4x64x96x32x32 ![0, 1, 2, 3, 4] bcast_S4x64x1x32x32_S4x64x96x32x32_0_1_2_3_4 (addf (broadcastInDim S4x64x1x32x32 ![0, 1, 3, 4] bcast_S4x64x32x32_S4x64x1x32x32_0_1_3_4 (Host.reduceAdd (F := Ideal) A (constant (F := Ideal) S_ .f32 0x00000000#32) reducesTo_S4x64x96x32x32_S4x64x32x32_d2 h_S_)) (broadcastInDim S4x64x1x32x32 ![] bcast_S_S4x64x1x32x32 (constant (F := Ideal) S_ .f32 0x1E3CE508#32)))

/-- The data spread over the output channels. -/
def rX (X : FVec Ideal S4x64x32x32 .f32) : FVec Ideal S4x64x96x32x32 .f32 :=
  broadcastInDim S4x64x96x32x32 ![0, 1, 2, 3, 4] bcast_S4x64x1x32x32_S4x64x96x32x32_0_1_2_3_4 (broadcastInDim S4x64x1x32x32 ![0, 1, 3, 4] bcast_S4x64x32x32_S4x64x1x32x32_0_1_3_4 X)

/-- The update before renormalisation, from the products A. -/
def rHnOf (X : FVec Ideal S4x64x32x32 .f32) (A : FVec Ideal S4x64x96x32x32 .f32) (h : FVec Ideal S4x96x32x32 .f32) : FVec Ideal S4x96x32x32 .f32 :=
  addf h (mulf (broadcastInDim S4x96x32x32 ![] bcast_S_S4x96x32x32 (constant (F := Ideal) S_ .f32 0x3F800000#32)) (Host.reduceAdd (F := Ideal) (mulf (Host.divf (F := Ideal) A (rDen A)) (rX X)) (constant (F := Ideal) S_ .f32 0x00000000#32) reducesTo_S4x64x96x32x32_S4x96x32x32_d1 h_S_))

/-- The update before renormalisation. -/
def rHn (X : FVec Ideal S4x64x32x32 .f32) (W : FVec Ideal S64x96 .f32) (h : FVec Ideal S4x96x32x32 .f32) : FVec Ideal S4x96x32x32 .f32 :=
  rHnOf X (rA W h) h

/-- Renormalisation over the output channels. -/
def rNorm (hn : FVec Ideal S4x96x32x32 .f32) : FVec Ideal S4x96x32x32 .f32 :=
  Host.divf (F := Ideal) hn (broadcastInDim S4x96x32x32 ![0, 1, 2, 3] bcast_S4x1x32x32_S4x96x32x32_0_1_2_3 (addf (broadcastInDim S4x1x32x32 ![0, 2, 3] bcast_S4x32x32_S4x1x32x32_0_2_3 (Host.reduceAdd (F := Ideal) hn (constant (F := Ideal) S_ .f32 0x00000000#32) reducesTo_S4x96x32x32_S4x32x32_d1 h_S_)) (broadcastInDim S4x1x32x32 ![] bcast_S_S4x1x32x32 (constant (F := Ideal) S_ .f32 0x1E3CE508#32))))

/-- One whole step on arrays. -/
def rStep (X : FVec Ideal S4x64x32x32 .f32) (W : FVec Ideal S64x96 .f32) (h : FVec Ideal S4x96x32x32 .f32) : FVec Ideal S4x96x32x32 .f32 :=
  rNorm (rHn X W h)

/-! ## The arrays read at an index -/

/-- The spread initial state at (b, co, i, j) is H[co]. -/
theorem rH0_apply (H : FVec Ideal S96 .f32) (b : Fin 4) (co : Fin 96) (i j : Fin 32) :
    rH0 H (ix4 b co i j) = H (ix1 co) := by
  unfold rH0
  refine (broadcastInDim_apply _ _ _ (ix4 b co i j) (ix4 (0 : Fin 1) co (0 : Fin 1) (0 : Fin 1))
    (fun a => match a with | ⟨0, _⟩ => rfl | ⟨1, _⟩ => rfl | ⟨2, _⟩ => rfl | ⟨3, _⟩ => rfl)).trans ?_
  exact broadcastInDim_apply _ _ _ _ (ix1 co) (fun a => match a with | ⟨0, _⟩ => rfl)

/-- The products at (b, ci, co, i, j): h[b, co, i, j] * W[ci, co]. -/
theorem rA_apply (W : FVec Ideal S64x96 .f32) (h : FVec Ideal S4x96x32x32 .f32) (b : Fin 4) (ci : Fin 64) (co : Fin 96) (i j : Fin 32) :
    rA W h (ix5 b ci co i j) = h (ix4 b co i j) * W (ix2 ci co) := by
  unfold rA
  refine congrArg₂ (· * ·) ?_ ?_
  · refine (broadcastInDim_apply _ _ _ (ix5 b ci co i j) (ix5 b (0 : Fin 1) co i j)
      (fun a => match a with | ⟨0, _⟩ => rfl | ⟨1, _⟩ => rfl | ⟨2, _⟩ => rfl | ⟨3, _⟩ => rfl | ⟨4, _⟩ => rfl)).trans ?_
    exact broadcastInDim_apply _ _ _ _ (ix4 b co i j)
      (fun a => match a with | ⟨0, _⟩ => rfl | ⟨1, _⟩ => rfl | ⟨2, _⟩ => rfl | ⟨3, _⟩ => rfl)
  · refine (broadcastInDim_apply _ _ _ (ix5 b ci co i j) (ix5 (0 : Fin 1) ci co (0 : Fin 1) (0 : Fin 1))
      (fun a => match a with | ⟨0, _⟩ => rfl | ⟨1, _⟩ => rfl | ⟨2, _⟩ => rfl | ⟨3, _⟩ => rfl | ⟨4, _⟩ => rfl)).trans ?_
    exact broadcastInDim_apply _ _ _ _ (ix2 ci co) (fun a => match a with | ⟨0, _⟩ => rfl | ⟨1, _⟩ => rfl)

/-- The host sum over the output-channel axis of a rank-5 array, from the zero word: the plain sum over that axis. -/
theorem sumCo_apply (A : FVec Ideal S4x64x96x32x32 .f32) (b : Fin 4) (ci : Fin 64) (i j : Fin 32) :
    Host.reduceAdd (F := Ideal) A (constant (F := Ideal) S_ .f32 0x00000000#32) reducesTo_S4x64x96x32x32_S4x64x32x32_d2 h_S_ (ix4 b ci i j)
      = ∑ k : Fin 96, A (ix5 b ci k i j) := by
  refine (Ideal.hostReduceAdd_single reducesTo_S4x64x96x32x32_S4x64x32x32_d2 (by decide) A _ (ix4 b ci i j)).trans ?_
  refine ((congrArg (· + _) Ideal.ofBits_zero_f32).trans (zero_add _)).trans ?_
  refine Finset.sum_congr rfl fun k _ => congrArg A (funext fun a => Fin.ext ?_)
  match a with
  | ⟨0, _⟩ => rfl
  | ⟨1, _⟩ => rfl
  | ⟨2, _⟩ => rfl
  | ⟨3, _⟩ => rfl
  | ⟨4, _⟩ => rfl

/-- The guarded reconstruction at (b, ci, co, i, j): the sum of the products over the output channels, plus eps (the same for every co). -/
theorem rDen_apply (A : FVec Ideal S4x64x96x32x32 .f32) (b : Fin 4) (ci : Fin 64) (co : Fin 96) (i j : Fin 32) :
    rDen A (ix5 b ci co i j) = (∑ k : Fin 96, A (ix5 b ci k i j)) + Cert.Nmf.eps := by
  unfold rDen
  refine (broadcastInDim_apply _ _ _ (ix5 b ci co i j) (ix5 b ci (0 : Fin 1) i j)
    (fun a => match a with | ⟨0, _⟩ => rfl | ⟨1, _⟩ => rfl | ⟨2, _⟩ => rfl | ⟨3, _⟩ => rfl | ⟨4, _⟩ => rfl)).trans ?_
  refine congrArg₂ (· + ·) ?_ rfl
  refine (broadcastInDim_apply _ _ _ (ix5 b ci (0 : Fin 1) i j) (ix4 b ci i j)
    (fun a => match a with | ⟨0, _⟩ => rfl | ⟨1, _⟩ => rfl | ⟨2, _⟩ => rfl | ⟨3, _⟩ => rfl)).trans ?_
  exact sumCo_apply A b ci i j

/-- The spread data at (b, ci, co, i, j) is X[b, ci, i, j]. -/
theorem rX_apply (X : FVec Ideal S4x64x32x32 .f32) (b : Fin 4) (ci : Fin 64) (co : Fin 96) (i j : Fin 32) :
    rX X (ix5 b ci co i j) = X (ix4 b ci i j) := by
  unfold rX
  refine (broadcastInDim_apply _ _ _ (ix5 b ci co i j) (ix5 b ci (0 : Fin 1) i j)
    (fun a => match a with | ⟨0, _⟩ => rfl | ⟨1, _⟩ => rfl | ⟨2, _⟩ => rfl | ⟨3, _⟩ => rfl | ⟨4, _⟩ => rfl)).trans ?_
  exact broadcastInDim_apply _ _ _ _ (ix4 b ci i j)
    (fun a => match a with | ⟨0, _⟩ => rfl | ⟨1, _⟩ => rfl | ⟨2, _⟩ => rfl | ⟨3, _⟩ => rfl)

/-- The host sum over the input-channel axis of a rank-5 array, from the zero word: the plain sum over that axis. -/
theorem sumCi_apply (C : FVec Ideal S4x64x96x32x32 .f32) (b : Fin 4) (co : Fin 96) (i j : Fin 32) :
    Host.reduceAdd (F := Ideal) C (constant (F := Ideal) S_ .f32 0x00000000#32) reducesTo_S4x64x96x32x32_S4x96x32x32_d1 h_S_ (ix4 b co i j)
      = ∑ ci : Fin 64, C (ix5 b ci co i j) := by
  refine (Ideal.hostReduceAdd_single reducesTo_S4x64x96x32x32_S4x96x32x32_d1 (by decide) C _ (ix4 b co i j)).trans ?_
  refine ((congrArg (· + _) Ideal.ofBits_zero_f32).trans (zero_add _)).trans ?_
  refine Finset.sum_congr rfl fun k _ => congrArg C (funext fun a => Fin.ext ?_)
  match a with
  | ⟨0, _⟩ => rfl
  | ⟨1, _⟩ => rfl
  | ⟨2, _⟩ => rfl
  | ⟨3, _⟩ => rfl
  | ⟨4, _⟩ => rfl

/-- The update before renormalisation at (b, co, i, j), in terms of the products A. -/
theorem rHnOf_apply (X : FVec Ideal S4x64x32x32 .f32) (A : FVec Ideal S4x64x96x32x32 .f32) (h : FVec Ideal S4x96x32x32 .f32)
    (b : Fin 4) (co : Fin 96) (i j : Fin 32) :
    rHnOf X A h (ix4 b co i j)
      = h (ix4 b co i j) + Cert.Nmf.one * ∑ ci : Fin 64, Ideal.div (A (ix5 b ci co i j)) (rDen A (ix5 b ci co i j)) * rX X (ix5 b ci co i j) := by
  unfold rHnOf
  exact congrArg (fun s => h (ix4 b co i j) + Cert.Nmf.one * s)
    (sumCi_apply (mulf (Host.divf (F := Ideal) A (rDen A)) (rX X)) b co i j)

/-- The update before renormalisation at (b, co, i, j) is the per-pixel update of the pixel's columns, at co. -/
theorem rHn_apply (X : FVec Ideal S4x64x32x32 .f32) (W : FVec Ideal S64x96 .f32) (h : FVec Ideal S4x96x32x32 .f32)
    (b : Fin 4) (co : Fin 96) (i j : Fin 32) :
    rHn X W h (ix4 b co i j)
      = Cert.Nmf.hnR (fun ci k => W (ix2 ci k)) (fun ci => X (ix4 b ci i j)) (fun k => h (ix4 b k i j)) co := by
  unfold rHn Cert.Nmf.hnR
  rw [rHnOf_apply]
  simp only [rDen_apply, rX_apply, rA_apply]

/-- The host sum over the output-channel axis of a rank-4 array, from the zero word: the plain sum over that axis. -/
theorem sumCoN_apply (hn : FVec Ideal S4x96x32x32 .f32) (b : Fin 4) (i j : Fin 32) :
    Host.reduceAdd (F := Ideal) hn (constant (F := Ideal) S_ .f32 0x00000000#32) reducesTo_S4x96x32x32_S4x32x32_d1 h_S_ (ix3 b i j)
      = ∑ k : Fin 96, hn (ix4 b k i j) := by
  refine (Ideal.hostReduceAdd_single reducesTo_S4x96x32x32_S4x32x32_d1 (by decide) hn _ (ix3 b i j)).trans ?_
  refine ((congrArg (· + _) Ideal.ofBits_zero_f32).trans (zero_add _)).trans ?_
  refine Finset.sum_congr rfl fun k _ => congrArg hn (funext fun a => Fin.ext ?_)
  match a with
  | ⟨0, _⟩ => rfl
  | ⟨1, _⟩ => rfl
  | ⟨2, _⟩ => rfl
  | ⟨3, _⟩ => rfl

/-- The renormalised array at (b, co, i, j) is the per-pixel renormalisation of the pixel's column, at co. -/
theorem rNorm_apply (hn : FVec Ideal S4x96x32x32 .f32) (b : Fin 4) (co : Fin 96) (i j : Fin 32) :
    rNorm hn (ix4 b co i j) = Cert.Nmf.norm (fun k => hn (ix4 b k i j)) co := by
  unfold rNorm Cert.Nmf.norm
  refine congrArg (Ideal.div (hn (ix4 b co i j))) ?_
  refine (broadcastInDim_apply _ _ _ (ix4 b co i j) (ix4 b (0 : Fin 1) i j)
    (fun a => match a with | ⟨0, _⟩ => rfl | ⟨1, _⟩ => rfl | ⟨2, _⟩ => rfl | ⟨3, _⟩ => rfl)).trans ?_
  refine congrArg₂ (· + ·) ?_ rfl
  refine (broadcastInDim_apply _ _ _ (ix4 b (0 : Fin 1) i j) (ix3 b i j)
    (fun a => match a with | ⟨0, _⟩ => rfl | ⟨1, _⟩ => rfl | ⟨2, _⟩ => rfl)).trans ?_
  exact sumCoN_apply hn b i j

/-! ## Five steps, column by column -/

/-- One array step, read along a pixel's output-channel column, is one per-pixel step of that column. -/
theorem rStep_col (X : FVec Ideal S4x64x32x32 .f32) (W : FVec Ideal S64x96 .f32) (h : FVec Ideal S4x96x32x32 .f32)
    (b : Fin 4) (i j : Fin 32) :
    (fun k => rStep X W h (ix4 b k i j))
      = Cert.Nmf.stepR (fun ci k => W (ix2 ci k)) (fun ci => X (ix4 b ci i j)) (fun k => h (ix4 b k i j)) := by
  funext co
  unfold rStep Cert.Nmf.stepR
  rw [rNorm_apply]
  exact congrArg (fun f => Cert.Nmf.norm f co) (funext fun k => rHn_apply X W h b k i j)

/-- Any number of array steps from the spread initial state, read along a pixel's column: that many per-pixel steps from H. -/
theorem iter_col (X : FVec Ideal S4x64x32x32 .f32) (W : FVec Ideal S64x96 .f32) (H : FVec Ideal S96 .f32)
    (b : Fin 4) (i j : Fin 32) (n : Nat) :
    (fun k => (rStep X W)^[n] (rH0 H) (ix4 b k i j))
      = (Cert.Nmf.stepR (fun ci k => W (ix2 ci k)) (fun ci => X (ix4 b ci i j)))^[n] (fun k => H (ix1 k)) := by
  induction n with
  | zero => exact funext fun k => rH0_apply H b k i j
  | succ n ih =>
    rw [Function.iterate_succ_apply', Function.iterate_succ_apply', ← ih]
    exact rStep_col X W _ b i j

/-- Five array steps from the spread initial state are the specification. -/
theorem iter5_eq (X : FVec Ideal S4x64x32x32 .f32) (W : FVec Ideal S64x96 .f32) (H : FVec Ideal S96 .f32) :
    (rStep X W)^[5] (rH0 H) = Cert.Nmf.GR X W H := by
  funext idx
  calc (rStep X W)^[5] (rH0 H) idx
      = (rStep X W)^[5] (rH0 H) (ix4 (idx 0) (idx 1) (idx 2) (idx 3)) := congrArg _ (eq_ix4 idx)
    _ = Cert.Nmf.GR X W H idx := congrFun (iter_col X W H (idx 0) (idx 2) (idx 3) 5) (idx 1)

/-! ## The run's result term -/

section Result
variable (V0 : Valuation τ sig (Elt Ideal))

/-- The run's composed result term is five array steps from the spread initial state. -/
theorem result_iter :
    Host.divf (F := Ideal) (res_main_v115 V0) (broadcastInDim S4x96x32x32 ![0, 1, 2, 3] bcast_S4x1x32x32_S4x96x32x32_0_1_2_3 (addf (broadcastInDim S4x1x32x32 ![0, 2, 3] bcast_S4x32x32_S4x1x32x32_0_2_3 (Host.reduceAdd (F := Ideal) (res_main_v115 V0) (constant (F := Ideal) S_ .f32 0x00000000#32) reducesTo_S4x96x32x32_S4x32x32_d1 h_S_)) (broadcastInDim S4x1x32x32 ![] bcast_S_S4x1x32x32 (constant (F := Ideal) S_ .f32 0x1E3CE508#32))))
      = (rStep (V0 (Proc.devRef .tc main_arg0)) (V0 (Proc.devRef .tc main_arg1)))^[5] (rH0 (V0 (Proc.devRef .tc main_arg2))) := rfl

/-- The run's composed result term is the specification of the argument arrays. -/
theorem result_eq :
    Host.divf (F := Ideal) (res_main_v115 V0) (broadcastInDim S4x96x32x32 ![0, 1, 2, 3] bcast_S4x1x32x32_S4x96x32x32_0_1_2_3 (addf (broadcastInDim S4x1x32x32 ![0, 2, 3] bcast_S4x32x32_S4x1x32x32_0_2_3 (Host.reduceAdd (F := Ideal) (res_main_v115 V0) (constant (F := Ideal) S_ .f32 0x00000000#32) reducesTo_S4x96x32x32_S4x32x32_d1 h_S_)) (broadcastInDim S4x1x32x32 ![] bcast_S_S4x1x32x32 (constant (F := Ideal) S_ .f32 0x1E3CE508#32))))
      = Cert.Nmf.GR (V0 (Proc.devRef .tc main_arg0)) (V0 (Proc.devRef .tc main_arg1)) (V0 (Proc.devRef .tc main_arg2)) :=
  (result_iter V0).trans (iter5_eq _ _ _)

end Result

/-- Every weakly fair execution of the reference ends with its result array at the specification of the three
    argument arrays as the memory holds them, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v121) = Cert.Nmf.GR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq (launchContents m c)), (h c).2⟩)
    (Cert.ReferenceIdeal.Value.run (F := Ideal) m ρ)

end Cert.ReferenceIdeal.RefValue

end
-- ==== Proof.NmfKernel.lean ====
/-
  The idealized kernel's value.

  The body holds, for one batch entry, the data block `x : [64, 1024]` (input channels by pixels), the weights
  `W : [64, 96]` and their transpose `WT : [96, 64]`, and the state `h : [96, 1024]` (output channels by pixels),
  and performs five times, on whole blocks,

      y  = W · h                 (a matrix product into a zero accumulator)          [64, 1024]
      z  = x / (y + ε)
      r  = WT · z                (a matrix product into a zero accumulator)          [96, 1024]
      hn = h + (1 · h) · r
      h  = hn / (column sums of hn + ε)

  Every column (pixel) evolves on its own: read at channel `c` and pixel `p`, one pass is one step
  `Cert.Nmf.stepK` of the column, with the weights `W` and the pixel's data column.  The module states that, then reads
  the block each grid point writes back, covers the output array by the four blocks, and carries the result through
  the final reshape of `[4, 96, 1024]` to `[4, 96, 32, 32]`.
-/
import proofs.«131620_j35794257444867_1_alg».proof.Proof.Gen.KernelIdeal.Frame
import proofs.«131620_j35794257444867_1_alg».proof.Proof.NmfSpec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.KValue

open Idealize.ShloMosaic Idealize.ShloMosaic.TcCoe Idealize.SL.Sem
open Cert.KernelIdeal Cert.KernelIdeal.Gen ValueIdx

/-! ## One pass of the body, on whole blocks -/

/-- The update before renormalisation: `h + (1 · h) · (WT · (x / (W · h + ε)))`, the products matrix products. -/
def kHn (W : FVec Ideal S64x96 .f32) (WT : FVec Ideal S96x64 .f32) (x : FVec Ideal S64x1024 .f32)
    (h : FVec Ideal S96x1024 .f32) : FVec Ideal S96x1024 .f32 :=
  addf h (mulf (mulf (broadcast S96x1024 (Scalar.ofBits (F := Ideal) .f32 0x3F800000#32)) h)
    (matmul dot_S96x64_S64x1024_S96x1024_1_0_0_1_n_n (some .fp32) WT
      (divf x (addf (matmul dot_S64x96_S96x1024_S64x1024_1_0_0_1_n_n (some .fp32) W h (constant (F := Ideal) S64x1024 .f32 0x00000000#32))
        (broadcast S64x1024 (Scalar.ofBits (F := Ideal) .f32 0x1E3CE508#32))))
      (constant (F := Ideal) S96x1024 .f32 0x00000000#32)))

/-- The renormalisation's denominator row: the column sums plus ε, as a `[1, 1024]` row. -/
def kDen (hn : FVec Ideal S96x1024 .f32) : FVec Ideal S1x1024 .f32 :=
  addf (shapeCast S1x1024 (multiReduction .add [0] S1024 hn 0x00000000#32 reduces_S96x1024_S1024 (.inl rfl) rfl) shapeCasts_S1024_S1x1024)
    (broadcast S1x1024 (Scalar.ofBits (F := Ideal) .f32 0x1E3CE508#32))

/-- Renormalisation of every column. -/
def kNorm (hn : FVec Ideal S96x1024 .f32) : FVec Ideal S96x1024 .f32 :=
  divf hn (broadcastTo S96x1024 (kDen hn) broadcasts_S1x1024_S96x1024)

/-- One pass. -/
def kStep (W : FVec Ideal S64x96 .f32) (WT : FVec Ideal S96x64 .f32) (x : FVec Ideal S64x1024 .f32)
    (h : FVec Ideal S96x1024 .f32) : FVec Ideal S96x1024 .f32 :=
  kNorm (kHn W WT x h)

/-! ## The printed payloads are passes -/

/-- The first two passes, from the loaded state. -/
theorem pay4_eq (x0 : Vec Ideal S1x64x1024 .f32) (x1 : Vec Ideal S64x96 .f32) (x2 : Vec Ideal S96x64 .f32) (x3 : Vec Ideal S96x1024 .f32) :
    k0_pay4 x0 x1 x2 x3 = kStep x1 (k0_pay3 x2) (k0_pay2 x0) (kStep x1 (k0_pay3 x2) (k0_pay2 x0) (shapeCast S96x1024 x3 shapeCasts_S96x1024_S96x1024)) := rfl

/-- Passes three and four and the fifth update, from the state after two passes. -/
theorem pay5_eq (v1 : FVec Ideal S64x1024 .f32) (v2 : Vec Ideal S64x96 .f32) (v4 : FVec Ideal S96x64 .f32) (v36 : FVec Ideal S96x1024 .f32) :
    k0_pay5 v1 v2 v4 v36 (constant (F := Ideal) S64x1024 .f32 0x00000000#32) = kHn v2 v4 v1 (kStep v2 v4 v1 (kStep v2 v4 v1 v36)) := rfl

/-- The fifth pass's denominator row. -/
theorem pay6_eq (v1 : FVec Ideal S64x1024 .f32) (v2 : Vec Ideal S64x96 .f32) (v4 : FVec Ideal S96x64 .f32) (v36 : FVec Ideal S96x1024 .f32)
    (cst : FVec Ideal S64x1024 .f32) : k0_pay6 v1 v2 v4 v36 cst = kDen (k0_pay5 v1 v2 v4 v36 cst) := rfl

/-- The fifth renormalisation, re-laid as `[1, 96, 1024]`. -/
theorem pay1_eq (hn : FVec Ideal S96x1024 .f32) :
    k0_pay1 hn (kDen hn) = shapeCast S1x96x1024 (kNorm hn) shapeCasts_S96x1024_S1x96x1024 := rfl

/-- What the body stores, from the four input blocks: five passes from the loaded state, re-laid as `[1, 96, 1024]`. -/
theorem payload_eq (x0 : Vec Ideal S1x64x1024 .f32) (x1 : Vec Ideal S64x96 .f32) (x2 : Vec Ideal S96x64 .f32) (x3 : Vec Ideal S96x1024 .f32) :
    k0_pay1 (k0_pay5 (k0_pay2 x0) x1 (k0_pay3 x2) (k0_pay4 x0 x1 x2 x3) (constant (F := Ideal) S64x1024 .f32 0x00000000#32))
        (k0_pay6 (k0_pay2 x0) x1 (k0_pay3 x2) (k0_pay4 x0 x1 x2 x3) (constant (F := Ideal) S64x1024 .f32 0x00000000#32))
      = shapeCast S1x96x1024
          (kStep x1 (k0_pay3 x2) (k0_pay2 x0) (kStep x1 (k0_pay3 x2) (k0_pay2 x0) (kStep x1 (k0_pay3 x2) (k0_pay2 x0)
            (kStep x1 (k0_pay3 x2) (k0_pay2 x0) (kStep x1 (k0_pay3 x2) (k0_pay2 x0) (shapeCast S96x1024 x3 shapeCasts_S96x1024_S96x1024))))))
          shapeCasts_S96x1024_S1x96x1024 := by
  rw [pay6_eq, pay5_eq, pay4_eq, pay1_eq]
  rfl

/-! ## The passes read at an index -/

/-- `W · h` at input channel `i` and pixel `p`: the sum over the output channels. -/
theorem mmWh_apply (W : FVec Ideal S64x96 .f32) (h : FVec Ideal S96x1024 .f32) (i : Fin 64) (p : Fin 1024) :
    matmul dot_S64x96_S96x1024_S64x1024_1_0_0_1_n_n (some .fp32) W h (constant (F := Ideal) S64x1024 .f32 0x00000000#32) (ix2 i p)
      = ∑ k : Fin 96, W (ix2 i k) * h (ix2 k p) := by
  refine (Ideal.matmul_constant_zero_apply dot_S64x96_S96x1024_S64x1024_1_0_0_1_n_n (some .fp32) W h (ix2 i p)).trans ?_
  rw [← Equiv.sum_comp (contrEquiv1 dot_S64x96_S96x1024_S64x1024_1_0_0_1_n_n 96 rfl rfl).symm]
  refine Finset.sum_congr rfl fun k _ => ?_
  congr 1
  · refine congrArg W (funext fun a => Fin.ext ?_)
    match a with
    | ⟨0, _⟩ => rfl
    | ⟨1, _⟩ => exact contrEquiv1_symm_val dot_S64x96_S96x1024_S64x1024_1_0_0_1_n_n 96 rfl rfl k
  · refine congrArg h (funext fun a => Fin.ext ?_)
    match a with
    | ⟨0, _⟩ => exact contrEquiv1_symm_val dot_S64x96_S96x1024_S64x1024_1_0_0_1_n_n 96 rfl rfl k
    | ⟨1, _⟩ => rfl

/-- `WT · z` at output channel `c` and pixel `p`: the sum over the input channels. -/
theorem mmWTz_apply (WT : FVec Ideal S96x64 .f32) (z : FVec Ideal S64x1024 .f32) (c : Fin 96) (p : Fin 1024) :
    matmul dot_S96x64_S64x1024_S96x1024_1_0_0_1_n_n (some .fp32) WT z (constant (F := Ideal) S96x1024 .f32 0x00000000#32) (ix2 c p)
      = ∑ i : Fin 64, WT (ix2 c i) * z (ix2 i p) := by
  refine (Ideal.matmul_constant_zero_apply dot_S96x64_S64x1024_S96x1024_1_0_0_1_n_n (some .fp32) WT z (ix2 c p)).trans ?_
  rw [← Equiv.sum_comp (contrEquiv1 dot_S96x64_S64x1024_S96x1024_1_0_0_1_n_n 64 rfl rfl).symm]
  refine Finset.sum_congr rfl fun k _ => ?_
  congr 1
  · refine congrArg WT (funext fun a => Fin.ext ?_)
    match a with
    | ⟨0, _⟩ => rfl
    | ⟨1, _⟩ => exact contrEquiv1_symm_val dot_S96x64_S64x1024_S96x1024_1_0_0_1_n_n 64 rfl rfl k
  · refine congrArg z (funext fun a => Fin.ext ?_)
    match a with
    | ⟨0, _⟩ => exact contrEquiv1_symm_val dot_S96x64_S64x1024_S96x1024_1_0_0_1_n_n 64 rfl rfl k
    | ⟨1, _⟩ => rfl

/-- The update before renormalisation at channel `c` and pixel `p` is the column's `hnK`, with the transposed weights
    `WT` read as `WT[c, i] = W[i, c]`. -/
theorem kHn_apply (W : FVec Ideal S64x96 .f32) (WT : FVec Ideal S96x64 .f32) (x : FVec Ideal S64x1024 .f32)
    (h : FVec Ideal S96x1024 .f32) (hT : ∀ (c : Fin 96) (i : Fin 64), WT (ix2 c i) = W (ix2 i c)) (c : Fin 96) (p : Fin 1024) :
    kHn W WT x h (ix2 c p)
      = Cert.Nmf.hnK (fun i k => W (ix2 i k)) (fun i => x (ix2 i p)) (fun k => h (ix2 k p)) c := by
  unfold kHn Cert.Nmf.hnK
  rw [addf_apply, mulf_apply, mulf_apply, mmWTz_apply]
  refine congrArg (h (ix2 c p) + ·) (congrArg (_ * ·) (Finset.sum_congr rfl fun i _ => ?_))
  rw [hT c i, divf_apply, addf_apply, mmWh_apply]
  rfl

/-- The denominator row at pixel `p`: the column's sum plus ε. -/
theorem kDen_apply (hn : FVec Ideal S96x1024 .f32) (p : Fin 1024) :
    kDen hn (ix2 (0 : Fin 1) p) = (∑ k : Fin 96, hn (ix2 k p)) + Cert.Nmf.eps := by
  unfold kDen
  rw [addf_apply, shapeCast_a_1a_apply]
  refine congrArg (· + Cert.Nmf.eps) ?_
  refine (Ideal.multiReduction_add_single hn 0x00000000#32 reduces_S96x1024_S1024 (.inl rfl) rfl (ix1 p)).trans ?_
  exact Finset.sum_congr rfl fun k _ => congrArg hn (funext fun a => Fin.ext (by
    match a with
    | ⟨0, _⟩ => rfl
    | ⟨1, _⟩ => rfl))

/-- Renormalisation at channel `c` and pixel `p` is the column's `norm`. -/
theorem kNorm_apply (hn : FVec Ideal S96x1024 .f32) (c : Fin 96) (p : Fin 1024) :
    kNorm hn (ix2 c p) = Cert.Nmf.norm (fun k => hn (ix2 k p)) c := by
  unfold kNorm Cert.Nmf.norm
  rw [divf_apply, broadcastTo_1b_ab_apply, kDen_apply]

/-- One pass at channel `c` and pixel `p` is one step of the column. -/
theorem kStep_apply (W : FVec Ideal S64x96 .f32) (WT : FVec Ideal S96x64 .f32) (x : FVec Ideal S64x1024 .f32)
    (h : FVec Ideal S96x1024 .f32) (hT : ∀ (c : Fin 96) (i : Fin 64), WT (ix2 c i) = W (ix2 i c)) (c : Fin 96) (p : Fin 1024) :
    kStep W WT x h (ix2 c p)
      = Cert.Nmf.stepK (fun i k => W (ix2 i k)) (fun i => x (ix2 i p)) (fun k => h (ix2 k p)) c := by
  unfold kStep Cert.Nmf.stepK
  rw [kNorm_apply]
  exact congrFun (congrArg Cert.Nmf.norm (funext fun k => kHn_apply W WT x h hT k p)) c

/-- A pass acts column by column: the column of the result is the step of the column. -/
theorem kStep_col (W : FVec Ideal S64x96 .f32) (WT : FVec Ideal S96x64 .f32) (x : FVec Ideal S64x1024 .f32)
    (h : FVec Ideal S96x1024 .f32) (hT : ∀ (c : Fin 96) (i : Fin 64), WT (ix2 c i) = W (ix2 i c)) (p : Fin 1024) :
    (fun k => kStep W WT x h (ix2 k p))
      = Cert.Nmf.stepK (fun i k => W (ix2 i k)) (fun i => x (ix2 i p)) (fun k => h (ix2 k p)) :=
  funext fun k => kStep_apply W WT x h hT k p

/-! ## What a grid point leaves in the output block -/

theorem off3_zero : (![0, 0, 0] : Fin 3 → Nat) = fun _ => 0 := funext fun a => by fin_cases a <;> rfl
theorem off2_zero : (![0, 0] : Fin 2 → Nat) = fun _ => 0 := funext fun a => by fin_cases a <;> rfl

/-- The block a grid point writes back, read at output channel `co` and pixel `p`: five steps of the pixel's column,
    from the state block's column, with the weight block and the data block's column — provided the transposed-weights
    block is the transpose of the weights block. -/
theorem out_apply (x0 : Vec Ideal S1x64x1024 .f32) (x1 : Vec Ideal S64x96 .f32) (x2 : Vec Ideal S96x64 .f32) (x3 : Vec Ideal S96x1024 .f32)
    (hT : ∀ (c : Fin 96) (i : Fin 64), x2 (ix2 c i) = x1 (ix2 i c)) (co : Fin 96) (p : Fin 1024) :
    out0_4 x0 x1 x2 x3 (ix3 (0 : Fin 1) co p)
      = (Cert.Nmf.stepK (fun i k => x1 (ix2 i k)) (fun i => x0 (ix3 (0 : Fin 1) i p)))^[5] (fun k => x3 (ix2 k p)) co := by
  have hWT : ∀ (c : Fin 96) (i : Fin 64), k0_pay3 x2 (ix2 c i) = x1 (ix2 i c) := fun c i => by
    show shapeCast S96x64 x2 shapeCasts_S96x64_S96x64 (ix2 c i) = _
    rw [shapeCast_self]; exact hT c i
  have hX : (fun i : Fin 64 => k0_pay2 x0 (ix2 i p)) = fun i => x0 (ix3 (0 : Fin 1) i p) := funext fun i =>
    shapeCast_1ab_ab_apply x0 shapeCasts_S1x64x1024_S64x1024 i p
  have hH : (fun k : Fin 96 => shapeCast S96x1024 x3 shapeCasts_S96x1024_S96x1024 (ix2 k p)) = fun k => x3 (ix2 k p) := by
    rw [shapeCast_self]
  unfold out0_4
  rw [View.canon_unit_zero off3_zero]
  simp only [View.ld_unit_zero (S := S1x64x1024) off3_zero, View.ld_unit_zero (S := S64x96) off2_zero,
    View.ld_unit_zero (S := S96x64) off2_zero, View.ld_unit_zero (S := S96x1024) off2_zero]
  rw [payload_eq, shapeCast_ab_1ab_apply, kStep_apply _ _ _ _ hWT, kStep_col _ _ _ _ hWT, kStep_col _ _ _ _ hWT,
    kStep_col _ _ _ _ hWT, kStep_col _ _ _ _ hWT, hX, hH]
  rfl

end Cert.KernelIdeal.KValue

end
-- ==== Proof.NmfKernelArr.lean ====
/-
  The kernel's arrays, entry by entry.

  The program flattens the data's two pixel axes into one (`[4,64,32,32] → [4,64,1024]`), transposes the
  weights, repeats the initial state along the flattened pixel axis, runs one grid point per batch entry
  — point `b` reads row `b` of the flattened data and the whole of the other three arrays, and writes row `b`
  of a `[4,96,1024]` array — and unflattens that array to `[4,96,32,32]`.

  Two things are read off here.  First, each input block at a point, entry by entry, as an entry of an
  ARGUMENT array: the flattening, the transpose and the repetition are re-indexings, and a block's
  coordinate on an axis is (block index) × (block extent) + (coordinate inside the block).  Second, the
  result array, entry by entry, as an entry of the block its grid point left: the four blocks written back
  are the four rows of one array, they cover it, and the unflattening sends position
  `1024 (96 b + co) + 32 i + j` to itself.
-/
import proofs.«131620_j35794257444867_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.KArr

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The arrays the region finds, as terms over the arguments -/

/-- The first window's array at region entry: the data with its two pixel axes flattened into one. -/
theorem V_v0 (c : Dev nD) : (V m c main_v0 : S4x64x1024.Idx → EReal)
    = shapeCast S4x64x1024 (m ((c.tc : Thread nD τ).loc main_arg0) : S4x64x32x32.Idx → EReal) shapeCasts_S4x64x32x32_S4x64x1024 := by
  show StableHlo.after hostOps0 (fun b => m (c, b)) (Proc.devRef .tc main_v0) = _
  after_results
  rfl

/-- The third window's array at region entry: the weights transposed. -/
theorem V_v1 (c : Dev nD) : (V m c main_v1 : S96x64.Idx → EReal)
    = transpose S96x64 [1, 0] (m ((c.tc : Thread nD τ).loc main_arg1) : S64x96.Idx → EReal) transposes_S64x96_S96x64_1_0 := by
  show StableHlo.after hostOps0 (fun b => m (c, b)) (Proc.devRef .tc main_v1) = _
  after_results

/-- The fourth window's array at region entry: the initial state as a column, repeated along every pixel. -/
theorem V_v3 (c : Dev nD) : (V m c main_v3 : S96x1024.Idx → EReal)
    = broadcastInDim S96x1024 ![0, 1] bcast_S96x1_S96x1024_0_1
        (broadcastInDim S96x1 ![0] bcast_S96_S96x1_0 (m ((c.tc : Thread nD τ).loc main_arg2) : S96.Idx → EReal)) := by
  show StableHlo.after hostOps0 (fun b => m (c, b)) (Proc.devRef .tc main_v3) = _
  after_results

/-! ## Pixels and grid points -/

/-- A pixel's position in the flattened row of 1024: row-major, `32 i + j`. -/
def pix (i j : Fin 32) : Fin 1024 := ⟨32 * i.val + j.val, by omega⟩

/-- Batch entry `b` as a point of the grid (the grid has one axis, of extent 4). -/
def pt (b : Fin 4) : Fin cfg0.N := ⟨b.val, by rw [show cfg0.N = 4 from N_0]; exact b.isLt⟩

theorem pt_val (b : Fin 4) : (pt b).val = b.val := rfl
theorem pix_val (i j : Fin 32) : (pix i j).val = 32 * i.val + j.val := rfl

/-- The block index maps, over the grid: the data window and the output window are at block `(t, 0, 0)` at point `t`;
    the weights, their transpose and the state window stay at block `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The input blocks, entry by entry, over the argument arrays -/

/-- The flattening `[4,64,32,32] → [4,64,1024]` read at `(b, ci, 32 i + j)` is the operand at `(b, ci, i, j)`:
    both have row-major position `1024 (64 b + ci) + 32 i + j`. -/
theorem flatten_apply (X : S4x64x32x32.Idx → EReal) (k : S4x64x1024.Idx) (b : Fin 4) (ci : Fin 64) (i j : Fin 32)
    (h0 : (k 0).val = b.val) (h1 : (k 1).val = ci.val) (h2 : (k 2).val = 32 * i.val + j.val) :
    shapeCast S4x64x1024 X shapeCasts_S4x64x32x32_S4x64x1024 k = X (ix4 b ci i j) := by
  refine shapeCast_apply X _ k _ ?_
  rw [Shape.rowMajor_val_four, Shape.rowMajor_val_three]
  show ((b.val * 64 + ci.val) * 32 + i.val) * 32 + j.val = ((k 0).val * 64 + (k 1).val) * 1024 + (k 2).val
  omega

/-- The data block of batch entry `b`: entry `(0, ci, 32 i + j)` is the data at `(b, ci, i, j)`. -/
theorem iblk0_apply (c : Dev nD) (b : Fin 4) (ci : Fin 64) (i j : Fin 32) :
    (iblk m c 0 (pt b) : S1x64x1024.Idx → EReal) (ix3 0 ci (pix i j)) = m ((c.tc : Thread nD τ).loc main_arg0) (ix4 b ci i j) := by
  obtain ⟨e0, e1, e2, -⟩ := idx_facts (pt b)
  unfold iblk
  rw [View.read_apply]
  show (V m c main_v0 : S4x64x1024.Idx → EReal) _ = _
  rw [V_v0]
  refine flatten_apply _ _ b ci i j ?_ ?_ ?_
  · show win0_0.index (pt b) (0 : Fin 3) * 1 + 1 * 0 = b.val
    rw [e0, pt_val]; omega
  · show win0_0.index (pt b) (1 : Fin 3) * 64 + 1 * ci.val = ci.val
    rw [e1]; omega
  · show win0_0.index (pt b) (2 : Fin 3) * 1024 + 1 * (32 * i.val + j.val) = 32 * i.val + j.val
    rw [e2]; omega

/-- The weights block (the whole array, at every point): entry `(ci, co)` is the weight at `(ci, co)`. -/
theorem iblk1_apply (c : Dev nD) (b : Fin 4) (ci : Fin 64) (co : Fin 96) :
    (iblk m c 1 (pt b) : S64x96.Idx → EReal) (ix2 ci co) = m ((c.tc : Thread nD τ).loc main_arg1) (ix2 ci co) := by
  obtain ⟨-, -, -, e0, e1, -⟩ := idx_facts (pt b)
  unfold iblk
  rw [View.read_apply]
  show (V m c main_arg1 : S64x96.Idx → EReal) _ = _
  rw [V_main_arg1]
  refine congrArg _ (funext fun a => Fin.ext ?_)
  match a with
  | ⟨0, _⟩ => show win0_1.index (pt b) (0 : Fin 2) * 64 + 1 * ci.val = ci.val; rw [e0]; omega
  | ⟨1, _⟩ => show win0_1.index (pt b) (1 : Fin 2) * 96 + 1 * co.val = co.val; rw [e1]; omega

/-- The transposed-weights block (the whole array, at every point): entry `(co, ci)` is the weight at `(ci, co)`. -/
theorem iblk2_apply (c : Dev nD) (b : Fin 4) (co : Fin 96) (ci : Fin 64) :
    (iblk m c 2 (pt b) : S96x64.Idx → EReal) (ix2 co ci) = m ((c.tc : Thread nD τ).loc main_arg1) (ix2 ci co) := by
  obtain ⟨-, -, -, -, -, e0, e1, -⟩ := idx_facts (pt b)
  unfold iblk
  rw [View.read_apply]
  show (V m c main_v1 : S96x64.Idx → EReal) _ = _
  rw [V_v1]
  refine Eq.trans (congrArg _ (funext fun a => Fin.ext ?_)) (transpose_ix2_apply _ transposes_S64x96_S96x64_1_0 co ci)
  match a with
  | ⟨0, _⟩ => show win0_2.index (pt b) (0 : Fin 2) * 96 + 1 * co.val = co.val; rw [e0]; omega
  | ⟨1, _⟩ => show win0_2.index (pt b) (1 : Fin 2) * 64 + 1 * ci.val = ci.val; rw [e1]; omega

/-- The state block (the whole array, at every point): entry `(co, p)` is the initial state at `co`, whatever the pixel. -/
theorem iblk3_apply (c : Dev nD) (b : Fin 4) (co : Fin 96) (p : Fin 1024) :
    (iblk m c 3 (pt b) : S96x1024.Idx → EReal) (ix2 co p) = m ((c.tc : Thread nD τ).loc main_arg2) (ix1 co) := by
  obtain ⟨-, -, -, -, -, -, -, e0, e1, -⟩ := idx_facts (pt b)
  unfold iblk
  rw [View.read_apply]
  show (V m c main_v3 : S96x1024.Idx → EReal) _ = _
  rw [V_v3]
  refine (broadcastInDim_apply _ bcast_S96x1_S96x1024_0_1 _ _ (ix2 co (0 : Fin 1)) fun a => ?_).trans
    (broadcastInDim_apply _ bcast_S96_S96x1_0 _ _ (ix1 co) fun a => ?_)
  · match a with
    | ⟨0, _⟩ => show co.val = win0_3.index (pt b) (0 : Fin 2) * 96 + 1 * co.val; rw [e0]; omega
    | ⟨1, _⟩ => rfl
  · match a with
    | ⟨0, _⟩ => rfl

/-! ## The array the grid points write, as one function -/

/-- What point `t` leaves in the output window: the body's result on the four input blocks at `t`. -/
abbrev blockOut (c : Dev nD) (t : Fin cfg0.N) : S1x96x1024.Idx → EReal :=
  out0_4 (iblk m c 0 t) (iblk m c 1 t) (iblk m c 2 t) (iblk m c 3 t)

/-- Rows stacked: the `[4,96,1024]` array whose row `b` is the block `X (pt b)`. -/
def stackRows (X : Fin cfg0.N → S1x96x1024.Idx → EReal) : S4x96x1024.Idx → EReal := fun k =>
  X (pt (k 0)) (ix3 0 (k 1) (k 2))

/-- For ANY family of blocks `X`: block `X t`, as the write-back at point `t` moves it, is row `t` of the stacked array read
    through the window's block at `t` — the block sits at `(t, 0, 0)`, so its entry `(0, co, p)` is the array's `(t, co, p)`. -/
theorem cut_eq_read_stackRows (X : Fin cfg0.N → S1x96x1024.Idx → EReal) (t : Fin cfg0.N) :
    (cfg0.win 4).cut (grid0.coords t) (X t) = ((cfg0.win 4).blk t).view.read (Elt Ideal) (stackRows X) := by
  obtain ⟨-, -, -, -, -, -, -, -, -, e0, e1, e2⟩ := idx_facts t
  refine funext fun (y : S1x96x1024.Idx) => ?_
  rw [View.read_apply]
  show X t y = X (pt ((((cfg0.win 4).blk t).view.emb y) 0)) (ix3 0 ((((cfg0.win 4).blk t).view.emb y) 1) ((((cfg0.win 4).blk t).view.emb y) 2))
  have hy0 : (y 0).val = 0 := by have h : (y 0).val < 1 := (y 0).isLt; omega
  have hpt : pt ((((cfg0.win 4).blk t).view.emb y) 0) = t := Fin.ext (by
    show win0_4.index t (0 : Fin 3) * 1 + 1 * (y 0).val = t.val
    rw [e0, hy0]; omega)
  have hy : ix3 (0 : Fin 1) ((((cfg0.win 4).blk t).view.emb y) 1) ((((cfg0.win 4).blk t).view.emb y) 2) = y := funext fun a => Fin.ext (by
    match a with
    | ⟨0, _⟩ => show 0 = (y 0).val; omega
    | ⟨1, _⟩ => show win0_4.index t (1 : Fin 3) * 96 + 1 * (y 1).val = (y 1).val; rw [e1]; omega
    | ⟨2, _⟩ => show win0_4.index t (2 : Fin 3) * 1024 + 1 * (y 2).val = (y 2).val; rw [e2]; omega)
  rw [hpt]
  exact congrArg (X t) hy.symm

/-- The `[4,96,1024]` array the region writes, as one function: row `b` is the block point `b` left. -/
def arrFlat (c : Dev nD) : S4x96x1024.Idx → EReal := stackRows (blockOut m c)

/-- What point `t` writes back is row `t` of that one function, read through the window's block at `t`. -/
theorem flushed_eq (c : Dev nD) (t : Fin cfg0.N) :
    (dats m 0 c).flushed 4 t = ((cfg0.win 4).blk t).view.read (Elt Ideal) (arrFlat m c) := by
  show (cfg0.win 4).cut (grid0.coords t) ((dats m 0 c).after 4 t) = _
  rw [after0_4]
  exact cut_eq_read_stackRows (blockOut m c) t

/-- Every entry of the `[4,96,1024]` array is in the block of the point its row names. -/
theorem cover (i : S4x96x1024.Idx) :
    ∃ t : Fin cfg0.N, (cfg0.win 4).flush t = true ∧ i ∈ ((cfg0.win 4).blk t).view.set := by
  obtain ⟨-, -, -, -, -, -, -, -, -, e0, e1, e2⟩ := idx_facts (pt (i 0))
  have e0' : win0_4.index (pt (i 0)) (0 : Fin 3) = (i 0).val := e0
  refine ⟨pt (i 0), flush0_4 _, ?_⟩
  show i ∈ ((View.whole main_v4).slice (win0_4.rect (pt (i 0)))).set
  rw [View.set_slice_whole, Rect.mem_set_unit]
  intro a
  have h1 : (i 1).val < 96 := (i 1).isLt
  have h2 : (i 2).val < 1024 := (i 2).isLt
  match a with
  | ⟨0, _⟩ => show win0_4.index (pt (i 0)) (0 : Fin 3) * 1 ≤ (i 0).val ∧ (i 0).val < win0_4.index (pt (i 0)) (0 : Fin 3) * 1 + 1
              rw [e0']; omega
  | ⟨1, _⟩ => show win0_4.index (pt (i 0)) (1 : Fin 3) * 96 ≤ (i 1).val ∧ (i 1).val < win0_4.index (pt (i 0)) (1 : Fin 3) * 96 + 96
              rw [e1]; omega
  | ⟨2, _⟩ => show win0_4.index (pt (i 0)) (2 : Fin 3) * 1024 ≤ (i 2).val ∧ (i 2).val < win0_4.index (pt (i 0)) (2 : Fin 3) * 1024 + 1024
              rw [e2]; omega

/-- So after the last point the region's output array holds that function. -/
theorem final (c : Dev nD) : (dats m 0 c).arrAt 4 cfg0.N = arrFlat m c :=
  (dats m 0 c).arrAt_eq_of_cover 4 (arrFlat m c) (fun t _ => flushed_eq m c t) cover

/-! ## The host operation after the region, and the result entry by entry -/

/-- The result buffer after the program's last operation: the region's output array, its flattened pixel axis split back in two. -/
theorem tail_eq (c : Dev nD) :
    (Pipeline.afterTail₀ cfgs (dats m) 0 (V0 m) [hostOps1] c main_v5 : S4x96x32x32.Idx → EReal)
      = shapeCast S4x96x32x32 (arrFlat m c) shapeCasts_S4x96x1024_S4x96x32x32 := by
  have e : Pipeline.withArrays (cfgs 0).spec c (V0 m c) (fun w => (dats m 0 c).arrAt w (cfgs 0).N) (Proc.devRef .tc main_v4)
      = arrFlat m c :=
    (Pipeline.withArrays_arr spec0 launch0.win.arr_inj c _ _ 4).trans (final m c)
  unfold Pipeline.afterTail₀
  show StableHlo.after hostOps1 _ (Proc.devRef .tc main_v5) = _
  after_results
  exact congrArg (fun Y => shapeCast S4x96x32x32 Y shapeCasts_S4x96x1024_S4x96x32x32) e

/-- The unflattening `[4,96,1024] → [4,96,32,32]` read at `(b, co, i, j)` is the operand at `(b, co, 32 i + j)`:
    both have row-major position `1024 (96 b + co) + 32 i + j`. -/
theorem unflatten_apply (Y : S4x96x1024.Idx → EReal) (b : Fin 4) (co : Fin 96) (i j : Fin 32) :
    shapeCast S4x96x32x32 Y shapeCasts_S4x96x1024_S4x96x32x32 (ix4 b co i j) = Y (ix3 b co (pix i j)) := by
  refine shapeCast_apply Y _ _ _ ?_
  rw [Shape.rowMajor_val_three, Shape.rowMajor_val_four]
  show (b.val * 96 + co.val) * 1024 + (32 * i.val + j.val) = ((b.val * 96 + co.val) * 32 + i.val) * 32 + j.val
  omega

/-- Rows stacked and the pixel axis split: the `[4,96,32,32]` array whose entry `(b, co, i, j)` is entry `(0, co, 32 i + j)`
    of the block `X (pt b)`. -/
def unstack (X : Fin cfg0.N → S1x96x1024.Idx → EReal) : S4x96x32x32.Idx → EReal := fun idx =>
  X (pt (idx 0)) (ix3 0 (idx 1) (pix (idx 2) (idx 3)))

/-- For ANY family of blocks: the stacked array with its pixel axis split back in two is `unstack` of the family. -/
theorem unflatten_stackRows (X : Fin cfg0.N → S1x96x1024.Idx → EReal) :
    shapeCast S4x96x32x32 (stackRows X) shapeCasts_S4x96x1024_S4x96x32x32 = unstack X :=
  funext fun idx =>
    (congrArg (shapeCast S4x96x32x32 (stackRows X) shapeCasts_S4x96x1024_S4x96x32x32) (eq_ix4 idx)).trans
      (unflatten_apply (stackRows X) (idx 0) (idx 1) (idx 2) (idx 3))

/-- The output array, entry by entry, as what the grid points wrote: entry `(b, co, i, j)` is entry `(0, co, 32 i + j)`
    of the block point `b` left. -/
def arrOut (c : Dev nD) : S4x96x32x32.Idx → EReal := fun idx =>
  out0_4 (iblk m c 0 (pt (idx 0))) (iblk m c 1 (pt (idx 0))) (iblk m c 2 (pt (idx 0))) (iblk m c 3 (pt (idx 0)))
    (ix3 0 (idx 1) (pix (idx 2) (idx 3)))

/-- `arrOut` is `unstack` of the blocks the points left. -/
theorem arrOut_eq (c : Dev nD) : arrOut m c = unstack (blockOut m c) := by
  unfold arrOut unstack
  with_reducible rfl

/-! ## The run -/

/-- Every weakly fair run of the program from memory `m` ends with the result buffer at `arrOut` and the three arguments as launched. -/
theorem run_out : θ_run (defs (F := Ideal)) (onTc (τ := τ) (main (F := Ideal))) ⟨m, fun _ => 0, ρ⟩ fun r => ∀ c : Dev nD,
      r.2.mem ((c.tc : Thread nD τ).loc main_v5) = arrOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v5 (Pipeline.mem_restRefs_of main_v5 (by decide) (by decide))).trans
        ((tail_eq m c).trans ((unflatten_stackRows (blockOut m c)).trans (arrOut_eq m c).symm)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KArr
end
-- ==== Proof.lean ====
/-
  The kernel and the reference compute the same five multiplicative-update steps of a nonnegative factorisation,
  pixel by pixel, and differ only in how one step is spelt.

  At a pixel, with data column `x`, weights `W` and state column `h`, a step is
  `h' = norm (h + h · ∑ i, W i · x i / s i)` with the guarded reconstruction `s i = (∑ k, W i k · h k) + ε`.
  The kernel forms `x i / s i`, contracts with the transposed weights by a matrix product and multiplies by `1 · h`;
  the reference forms `(h · W i) / s i` on a rank-5 array, multiplies by `x i`, sums over `i` and multiplies by `1`.
  On the extended reals these agree when every entry is a nonnegative real — the precondition — because then every
  `s i ≥ ε > 0`, every quotient is a real quotient, and the factor `h` moves across the finite sum by distributivity in ℝ;
  nonnegativity is preserved by a step, so the agreement persists through all five.

  The pieces: the precondition read entry by entry (NmfPre); the algebra of one step and of its iterates (NmfAlgebra);
  the reference's run as five array steps read along a pixel's column (NmfRef); the kernel's block passes read along a
  pixel's column (NmfKernel) and the blocks assembled into the output array through the reshapes around the region
  (NmfKernelArr).  Here they are joined: the kernel's output array is the quotient-first specification `GK` of the
  arguments, which under the precondition is the product-first specification `GR`, which is the reference's result.
-/
import proofs.«131620_j35794257444867_1_alg».proof.Defs
import proofs.«131620_j35794257444867_1_alg».proof.Proof.Gen.Kernel
import proofs.«131620_j35794257444867_1_alg».proof.Proof.Gen.Kernel.Skeleton
import proofs.«131620_j35794257444867_1_alg».proof.Proof.Gen.Kernel.Launch
import proofs.«131620_j35794257444867_1_alg».proof.Proof.Gen.Kernel.Points
import proofs.«131620_j35794257444867_1_alg».proof.Proof.Gen.Kernel.Frame
import proofs.«131620_j35794257444867_1_alg».proof.Proof.Gen.KernelIdeal
import proofs.«131620_j35794257444867_1_alg».proof.Proof.Gen.KernelIdeal.Skeleton
import proofs.«131620_j35794257444867_1_alg».proof.Proof.Gen.KernelIdeal.Launch
import proofs.«131620_j35794257444867_1_alg».proof.Proof.Gen.KernelIdeal.Points
import proofs.«131620_j35794257444867_1_alg».proof.Proof.Gen.KernelIdeal.Frame
import proofs.«131620_j35794257444867_1_alg».proof.Proof.Gen.ReferenceIdeal
import proofs.«131620_j35794257444867_1_alg».proof.Proof.Gen.Pre_finite_inputs
import proofs.«131620_j35794257444867_1_alg».proof.Proof.Gen.ReferenceIdeal.Run
import proofs.«131620_j35794257444867_1_alg».proof.Proof.NmfSpec
import proofs.«131620_j35794257444867_1_alg».proof.Proof.NmfAlgebra
import proofs.«131620_j35794257444867_1_alg».proof.Proof.NmfPre
import proofs.«131620_j35794257444867_1_alg».proof.Proof.NmfRef
import proofs.«131620_j35794257444867_1_alg».proof.Proof.NmfKernel
import proofs.«131620_j35794257444867_1_alg».proof.Proof.NmfKernelArr
import Idealize.ShloMosaic.Adequacy
import Idealize.ShloMosaic.Init

noncomputable section

namespace Cert.Proof

open Idealize.ShloMosaic Idealize.ShloMosaic.TcCoe Idealize.SL.Sem Idealize.ShloMosaic.ValueIdx

/-- On nonnegative real entries the two specifications agree: at every index both are five steps of the same pixel's
    column, and the iterates of the two spellings of a step agree on nonnegative reals. -/
theorem GK_eq_GR (X : (⟨4, ![4, 64, 32, 32]⟩ : Shape).Idx → EReal) (W : (⟨2, ![64, 96]⟩ : Shape).Idx → EReal)
    (H : (⟨1, ![96]⟩ : Shape).Idx → EReal) (hX : ∀ i, Cert.Nmf.NN (X i)) (hW : ∀ i, Cert.Nmf.NN (W i)) (hH : ∀ i, Cert.Nmf.NN (H i)) :
    Cert.Nmf.GK X W H = Cert.Nmf.GR X W H := by
  funext idx
  unfold Cert.Nmf.GK Cert.Nmf.GR
  exact congrFun (Cert.Nmf.iterate_stepK_eq (fun ci k => W (ix2 ci k)) (fun ci => X (ix4 (idx 0) ci (idx 2) (idx 3)))
    (fun k => H (ix1 k)) (fun i c => hW _) (fun i => hX _) (fun c => hH _) 5) (idx 1)

section Kernel

open Cert.KernelIdeal Cert.KernelIdeal.Gen Cert.KernelIdeal.KArr Cert.KernelIdeal.KValue

/-- Five steps depend only on the weights, the data column and the initial column. -/
theorem iter_congr {W W' : Fin 64 → Fin 96 → EReal} {x x' : Fin 64 → EReal} {h h' : Fin 96 → EReal}
    (eW : W = W') (ex : x = x') (eh : h = h') (co : Fin 96) :
    (Cert.Nmf.stepK W x)^[5] h co = (Cert.Nmf.stepK W' x')^[5] h' co := by
  subst eW; subst ex; subst eh; rfl

/-- The kernel's output array, entry by entry as the grid points wrote it, is the quotient-first specification of the
    argument arrays: the block of batch `b` at channel `co` and pixel `32 i + j` is five steps of that pixel's column, the
    data block's column being `X[b, ·, i, j]`, the weight blocks `W` and its transpose, the state block's column `H`. -/
theorem arrOut_eq_GK (m : (ℓ : Loc nD τ sig) → Buf (Elt Ideal) ℓ) (c : Dev nD) :
    arrOut m c = Cert.Nmf.GK (m ((c.tc : Thread nD τ).loc main_arg0)) (m ((c.tc : Thread nD τ).loc main_arg1)) (m ((c.tc : Thread nD τ).loc main_arg2)) := by
  funext idx
  obtain ⟨b, co, i, j, rfl⟩ : ∃ (b : Fin 4) (co : Fin 96) (i j : Fin 32), idx = ix4 b co i j :=
    ⟨idx 0, idx 1, idx 2, idx 3, eq_ix4 idx⟩
  refine (out_apply (iblk m c 0 (pt b)) (iblk m c 1 (pt b)) (iblk m c 2 (pt b)) (iblk m c 3 (pt b))
    (fun co' ci' => (iblk2_apply m c b co' ci').trans (iblk1_apply m c b ci' co').symm) co (pix i j)).trans ?_
  exact iter_congr (funext fun ci => funext fun k => iblk1_apply m c b ci k) (funext fun ci => iblk0_apply m c b ci i j)
    (funext fun k => iblk3_apply m c b k (pix i j)) co

end Kernel

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both programs end at the product-first specification of the arguments: the kernel through the quotient-first one
    and the precondition's nonnegativity, the reference directly, the arguments of the two runs agreeing. -/
theorem algebraic : Cert.algebraic_KernelIdeal_ReferenceIdeal := by
  intro m ρ m' ρ' hpre hagree
  refine ⟨fun c => Cert.Nmf.GR (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KernelIdeal.KArr.run_out m ρ)
    obtain ⟨hx, hw, hh⟩ := Cert.NmfPre.nn_of_pre _ _ _ (hpre c)
    exact (arrOut_eq_GK m c).trans (GK_eq_GR _ _ _ hx hw hh)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
